-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_tau" .f32 0x42480000#32 ((268435456 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v66)) (v3 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_v27_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : IVec S4096 32) (main_arg3 : FVec F S4096 .f32) (main_arg4 : FVec F S4096 .f32) (main_arg5 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1 : Shape := ⟨1, ![1]⟩
abbrev S1x4096 : Shape := ⟨2, ![1, 4096]⟩
abbrev S4096x4096 : Shape := ⟨2, ![4096, 4096]⟩
abbrev S1024x512 : Shape := ⟨2, ![1024, 512]⟩
abbrev S1x1024 : Shape := ⟨2, ![1, 1024]⟩
abbrev S1024x1024 : Shape := ⟨2, ![1024, 1024]⟩
abbrev S1024x1 : Shape := ⟨2, ![1024, 1]⟩
abbrev S512x1024 : Shape := ⟨2, ![512, 1024]⟩
abbrev S1024 : Shape := ⟨1, ![1024]⟩

abbrev nBuf : Space → Nat
  | .hbm => 106
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096, .i32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .bf16⟩
  | .hbm, ⟨27, _⟩ => ⟨S4096x512, .bf16⟩
  | .hbm, ⟨28, _⟩ => ⟨S1, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S1x4096, .f32⟩
  | .hbm, ⟨39, _⟩ => ⟨S4096x4096, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096, .f32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S_, .f32⟩
  | .hbm, ⟨98, _⟩ => ⟨S4096, .f32⟩
  | .hbm, ⟨99, _⟩ => ⟨S4096, .f32⟩
  | .hbm, ⟨100, _⟩ => ⟨S4096, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_cst_15 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  slices_S4096_S1_0 : S4096.Slices ![0] S1
  shapeCasts_S1_S_ : S1.ShapeCasts S_
  bcast_S_S4096 : S_.BroadcastsInDim S4096 (![] : Fin 0 → Fin S4096.rank)
  reducesTo_S4096_S_d0 : S4096.ReducesTo [0] S_
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S4096x4096_S4096x1_0_0 : S4096x4096.Slices ![0, 0] S4096x1
  shapeCasts_S4096_S4096x1 : S4096.ShapeCasts S4096x1
  shapeCasts_S4096x1_S4096 : S4096x1.ShapeCasts S4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v17) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_2) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_3) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1 : Shape := ⟨1, ![1]⟩
abbrev S1x4096 : Shape := ⟨2, ![1, 4096]⟩

abbrev nBuf : Space → Nat
  | .hbm => 122
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096, .i32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S1, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S1x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4096, .f32⟩
  | .hbm, ⟨109, _⟩ => ⟨S4096, .f32⟩
  | .hbm, ⟨110, _⟩ => ⟨S_, .f32⟩
  | .hbm, ⟨111, _⟩ => ⟨S4096, .f32⟩
  | .hbm, ⟨112, _⟩ => ⟨S4096, .f32⟩
  | .hbm, ⟨113, _⟩ => ⟨S_, .f32⟩
  | .hbm, ⟨114, _⟩ => ⟨S4096, .f32⟩
  | .hbm, ⟨115, _⟩ => ⟨S4096, .f32⟩
  | .hbm, ⟨116, _⟩ => ⟨S4096, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_cst_19 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_21 : Ref sig .tc := ⟨.hbm, 117, rfl⟩
abbrev main_v83 : Ref sig .tc := ⟨.hbm, 118, rfl⟩
abbrev main_cst_22 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  slices_S4096_S1_0 : S4096.Slices ![0] S1
  shapeCasts_S1_S_ : S1.ShapeCasts S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  slices_S4096x4096_S4096x1_0_0 : S4096x4096.Slices ![0, 0] S4096x1
  shapeCasts_S4096x1_S4096 : S4096x1.ShapeCasts S4096
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Pieces.lean ====
/-
  What one run of the body leaves in the four output blocks, as the body's pure terms of the blocks it loaded.

  At the first column tile of a row tile the body stores a zero column into each of the three running columns and then
  adds the tile's row sums to what it reads back (the zero column); at the later column tiles it adds them to what the
  point before left. The score tile is stored whole at every point. Each lemma reads the stores the run found back as
  one value: a block covered by one whole store holds that store's value, and a load of a block just stored reads the
  stored value.
-/
import proofs.«137926_j21517786153378_2_alg».proof.Proof.GenP.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP Idealize.ShloMosaic Idealize.ShloMosaic.TcCoe Idealize.SL.Sem
open Idealize.ShloMosaic.Tactic

variable {F : FTy → Type} [FloatOps F] [Named F]

theorem hz : (![0, 0] : Fin 2 → Nat) = fun _ => 0 := funext fun a => by fin_cases a <;> rfl

/-! ## The first column tile of a row tile -/

theorem first_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x512 .bf16) (x1 : Vec F S1024x512 .bf16) (x2 : Vec F S1x1024 .f32) :
    out0_A_3 c i arg2 harg2 arg3 harg3 arg4 harg4 arg5 harg5 arg6 harg6 arg7 harg7 arg8 harg8 hc0 x0 x1 x2 = k0_pay2 x0 x1 := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  rw [View.canon_unit_zero hz]
  simp only [View.readAt_eq_ld, harg2.read_unread, harg3.read_unread, harg4.read_unread, View.ld_unit_zero (S := S1024x512) hz, View.ld_unit_zero (S := S1x1024) hz, View.ld_unit_zero (S := S1024x1) hz]

theorem first_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x512 .bf16) (x1 : Vec F S1024x512 .bf16) (x2 : Vec F S1x1024 .f32) :
    out0_A_4 c i arg2 harg2 arg3 harg3 arg4 harg4 arg5 harg5 arg6 harg6 arg7 harg7 arg8 harg8 hc0 x0 x1 x2 = k0_pay9 x0 x1 x2 (k0_pay6 (F := F)) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x512) hz, View.ld_unit_zero (S := S1x1024) hz, View.ld_unit_zero (S := S1024x1) hz]

theorem first_5 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x512 .bf16) (x1 : Vec F S1024x512 .bf16) (x2 : Vec F S1x1024 .f32) :
    out0_A_5 c i arg2 harg2 arg3 harg3 arg4 harg4 arg5 harg5 arg6 harg6 arg7 harg7 arg8 harg8 hc0 x0 x1 x2 = k0_pay10 x0 x1 x2 (k0_pay7 (F := F)) := by
  unfold out0_A_5
  rw [View.read_writes_eq_canon _ _ _ (cover0_A_5 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x512) hz, View.ld_unit_zero (S := S1x1024) hz, View.ld_unit_zero (S := S1024x1) hz]

theorem first_6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i)
    (x0 : Vec F S1024x512 .bf16) (x1 : Vec F S1024x512 .bf16) (x2 : Vec F S1x1024 .f32) :
    out0_A_6 c i arg2 harg2 arg3 harg3 arg4 harg4 arg5 harg5 arg6 harg6 arg7 harg7 arg8 harg8 hc0 x0 x1 x2 = k0_pay1 (k0_pay5 x0 x1 x2) (k0_pay8 (F := F)) := by
  unfold out0_A_6
  rw [View.read_writes_eq_canon _ _ _ (cover0_A_6 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, View.ld_unit_zero (S := S1024x512) hz, View.ld_unit_zero (S := S1x1024) hz, View.ld_unit_zero (S := S1024x1) hz]

/-! ## The later column tiles -/

theorem later_3 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x512 .bf16) (x1 : Vec F S1024x512 .bf16) (x2 : Vec F S1x1024 .f32) (xo4 : Vec F S1024x1 .f32) (xo5 : Vec F S1024x1 .f32) (xo6 : Vec F S1024x1 .f32) :
    out0_B_3 c i arg2 harg2 arg3 harg3 arg4 harg4 arg5 harg5 arg6 harg6 arg7 harg7 arg8 harg8 hc0 x0 x1 x2 xo4 xo5 xo6 = k0_pay2 x0 x1 := by
  unfold out0_B_3
  rw [View.read_writes_eq_canon _ _ _ (cover0_B_3 c i arg2 harg2 arg3 harg3 arg4 harg4 arg5 harg5 arg6 harg6 arg7 harg7 arg8 harg8 hc0 x0 x1 x2 xo4 xo5 xo6)]
  unfold kernelRun0_B
  dsimp only
  rw [View.canon_unit_zero hz]
  simp only [View.readAt_eq_ld, harg2.read_unread, harg3.read_unread, harg4.read_unread, harg6.read_unread, harg7.read_unread, harg8.read_unread, View.ld_unit_zero (S := S1024x512) hz, View.ld_unit_zero (S := S1x1024) hz, View.ld_unit_zero (S := S1024x1) hz]

theorem later_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x512 .bf16) (x1 : Vec F S1024x512 .bf16) (x2 : Vec F S1x1024 .f32) (xo4 : Vec F S1024x1 .f32) (xo5 : Vec F S1024x1 .f32) (xo6 : Vec F S1024x1 .f32) :
    out0_B_4 c i arg2 harg2 arg3 harg3 arg4 harg4 arg5 harg5 arg6 harg6 arg7 harg7 arg8 harg8 hc0 x0 x1 x2 xo4 xo5 xo6 = k0_pay9 x0 x1 x2 xo4 := by
  unfold out0_B_4
  rw [View.read_writes_eq_canon _ _ _ (cover0_B_4 c i arg2 harg2 arg3 harg3 arg4 harg4 arg5 harg5 arg6 harg6 arg7 harg7 arg8 harg8 hc0 x0 x1 x2 xo4 xo5 xo6)]
  unfold kernelRun0_B
  dsimp only
  rw [View.canon_unit_zero hz]
  simp only [View.readAt_eq_ld, harg2.read_unread, harg3.read_unread, harg4.read_unread, harg6.read_unread, harg7.read_unread, harg8.read_unread, View.ld_unit_zero (S := S1024x512) hz, View.ld_unit_zero (S := S1x1024) hz, View.ld_unit_zero (S := S1024x1) hz]

theorem later_5 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x512 .bf16) (x1 : Vec F S1024x512 .bf16) (x2 : Vec F S1x1024 .f32) (xo4 : Vec F S1024x1 .f32) (xo5 : Vec F S1024x1 .f32) (xo6 : Vec F S1024x1 .f32) :
    out0_B_5 c i arg2 harg2 arg3 harg3 arg4 harg4 arg5 harg5 arg6 harg6 arg7 harg7 arg8 harg8 hc0 x0 x1 x2 xo4 xo5 xo6 = k0_pay10 x0 x1 x2 xo5 := by
  unfold out0_B_5
  rw [View.read_writes_eq_canon _ _ _ (cover0_B_5 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x512) hz, View.ld_unit_zero (S := S1x1024) hz, View.ld_unit_zero (S := S1024x1) hz]

theorem later_6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i)
    (x0 : Vec F S1024x512 .bf16) (x1 : Vec F S1024x512 .bf16) (x2 : Vec F S1x1024 .f32) (xo4 : Vec F S1024x1 .f32) (xo5 : Vec F S1024x1 .f32) (xo6 : Vec F S1024x1 .f32) :
    out0_B_6 c i arg2 harg2 arg3 harg3 arg4 harg4 arg5 harg5 arg6 harg6 arg7 harg7 arg8 harg8 hc0 x0 x1 x2 xo4 xo5 xo6 = k0_pay1 (k0_pay5 x0 x1 x2) xo6 := by
  unfold out0_B_6
  rw [View.read_writes_eq_canon _ _ _ (cover0_B_6 c i arg2 harg2 arg3 harg3 arg4 harg4 arg5 harg5 arg6 harg6 arg7 harg7 arg8 harg8 hc0 x0 x1 x2 xo4 xo5 xo6)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x512) hz, View.ld_unit_zero (S := S1x1024) hz, View.ld_unit_zero (S := S1024x1) hz]

end Cert.KernelIdeal.Pieces

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.TileValues.lean ====
/-
  The arithmetic of ONE grid point, read entry by entry on the extended reals.

  At a point the body holds a block `a` of 1024 text rows, a block `b` of 1024 image rows (512 features each) and the
  1024 labels `l` of those image rows. It computes
    * the score tile        s(r,c) = Σₖ a(r,k)·b(c,k)                      (a matrix product with the transposed image block),
    * its exponentials      e(r,c) = exp(s(r,c)·κ),   κ the named reciprocal of the temperature,
    * the positives' part   p(r,c) = e(r,c)·l(c),
  and adds to three running columns the row sums  Σ_c p(r,c),  Σ_c (e(r,c) − p(r,c))  and  Σ_c p(r,c)·s(r,c).
  Each lemma below reads one of the body's pure terms at an entry `(r, c)` or at a row `r` of a column.
-/
import proofs.«137926_j21517786153378_2_alg».proof.Proof.Gen.KernelIdeal.Skeleton
import proofs.«137926_j21517786153378_2_alg».proof.Proof.LibPlainDot
import proofs.«137926_j21517786153378_2_alg».proof.Proof.LibKeepdimsLayout
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx
open scoped BigOperators

variable [hFacts : Cert.KernelIdeal.Facts]

/-- The reciprocal of the temperature: the exact rational 2²⁸ / 5368709. -/
def invTau : EReal := ((268435456 / 5368709 : ℝ) : EReal)

/-- The body's named constant denotes that rational on the extended reals. -/
theorem named_invTau : Named.named (F := Ideal) κ "inv_tau" (φ := .f32) 0x42480000#32 = invTau :=
  IdealRules.named_const.ideal_named_scalar _ _ _ _ rfl

/-- The score tile at (r, c): the inner product of text row r with image row c. -/
theorem score_apply (a b : FVec Ideal S1024x512 .bf16) (r c : Fin 1024) :
    k0_pay2 (F := Ideal) a b (ix2 r c) = ∑ k : Fin 512, a (ix2 r k) * b (ix2 c k) := by
  unfold k0_pay2
  dsimp only
  rw [shapeCast_self, shapeCast_self]
  refine (Cert.LibPlainDot.matmul_zero_apply (M := 1024) (K := 512) (N := 1024)
    dot_S1024x512_S512x1024_S1024x1024_1_0_0_1_n_n_wf none a
    (transpose S512x1024 [1, 0] b transposes_S1024x512_p1_0_S512x1024) r c).trans ?_
  refine Finset.sum_congr rfl fun k _ => ?_
  rw [transpose_ix2_apply]

/-- The exponential tile at (r, c). -/
theorem expo_apply (a b : FVec Ideal S1024x512 .bf16) (r c : Fin 1024) :
    k0_pay3 (F := Ideal) a b (ix2 r c) = Ideal.exp (k0_pay2 (F := Ideal) a b (ix2 r c) * invTau) := by
  unfold k0_pay3
  show Ideal.exp (k0_pay2 (F := Ideal) a b (ix2 r c) * Named.named (F := Ideal) κ "inv_tau" (φ := .f32) 0x42480000#32) = _
  rw [named_invTau]

/-- The positives' tile at (r, c): the exponential times the label of image row c. -/
theorem pos_apply (a b : FVec Ideal S1024x512 .bf16) (l : FVec Ideal S1x1024 .f32) (r c : Fin 1024) :
    k0_pay4 (F := Ideal) a b l (ix2 r c) = k0_pay3 (F := Ideal) a b (ix2 r c) * l (ix2 (0 : Fin 1) c) := by
  unfold k0_pay4
  show k0_pay3 (F := Ideal) a b (ix2 r c)
      * broadcastTo S1024x1024 (shapeCast S1x1024 l shapeCasts_S1x1024_S1x1024) broadcasts_S1x1024_S1024x1024 (ix2 r c) = _
  rw [shapeCast_self, broadcastTo_1b_ab_apply]

/-- A lane sum of a 1024 × 1024 tile kept as a column: at row r, the sum of the tile's row r. -/
theorem rowSum_apply (x : FVec Ideal S1024x1024 .f32) (hacc : (0x00000000#32 : BitVec 32) = 0x00000000#32) (r : Fin 1024) (u : Fin 1) :
    shapeCast S1024x1 (multiReduction .add [1] S1024 x 0x00000000#32 reduces_S1024x1024_S1024 (.inl rfl) hacc)
        shapeCasts_S1024_S1024x1 (ix2 r u)
      = ∑ c : Fin 1024, x (ix2 r c) := by
  refine (Cert.KernelIdeal.Val.shapeCast_a_a1_apply _ shapeCasts_S1024_S1024x1 r u).trans ?_
  refine (Ideal.multiReduction_add_single x 0x00000000#32 reduces_S1024x1024_S1024 (.inl rfl) hacc (ix1 r)).trans ?_
  refine Finset.sum_congr rfl fun c _ => congrArg x ?_
  funext d
  match d with
  | ⟨0, _⟩ => rfl
  | ⟨1, _⟩ => rfl

/-- The positives' running column after this point: what it held, plus the row sums of the positives' tile. -/
theorem posCol_apply (a b : FVec Ideal S1024x512 .bf16) (l : FVec Ideal S1x1024 .f32) (prev : FVec Ideal S1024x1 .f32)
    (r : Fin 1024) (u : Fin 1) :
    k0_pay9 (F := Ideal) a b l prev (ix2 r u) = prev (ix2 r u) + ∑ c : Fin 1024, k0_pay4 (F := Ideal) a b l (ix2 r c) := by
  unfold k0_pay9
  dsimp only
  rw [shapeCast_self]
  exact congrArg (prev (ix2 r u) + ·) (rowSum_apply _ rfl r u)

/-- The negatives' running column: what it held, plus the row sums of exponential minus positive part. -/
theorem negCol_apply (a b : FVec Ideal S1024x512 .bf16) (l : FVec Ideal S1x1024 .f32) (prev : FVec Ideal S1024x1 .f32)
    (r : Fin 1024) (u : Fin 1) :
    k0_pay10 (F := Ideal) a b l prev (ix2 r u)
      = prev (ix2 r u) + ∑ c : Fin 1024, (k0_pay3 (F := Ideal) a b (ix2 r c) - k0_pay4 (F := Ideal) a b l (ix2 r c)) := by
  unfold k0_pay10
  dsimp only
  rw [shapeCast_self]
  exact congrArg (prev (ix2 r u) + ·) (rowSum_apply _ rfl r u)

/-- The weighted running column: what it held, plus the row sums of positive part times score. -/
theorem weightedCol_apply (a b : FVec Ideal S1024x512 .bf16) (l : FVec Ideal S1x1024 .f32) (prev : FVec Ideal S1024x1 .f32)
    (r : Fin 1024) (u : Fin 1) :
    k0_pay1 (F := Ideal) (k0_pay5 (F := Ideal) a b l) prev (ix2 r u)
      = prev (ix2 r u) + ∑ c : Fin 1024, k0_pay4 (F := Ideal) a b l (ix2 r c) * k0_pay2 (F := Ideal) a b (ix2 r c) := by
  unfold k0_pay1 k0_pay5
  dsimp only
  rw [shapeCast_self]
  exact congrArg (prev (ix2 r u) + ·) (rowSum_apply _ rfl r u)

/-- The three zero columns the first column tile starts from. -/
theorem zeroCol_apply (j : S1024x1.Idx) :
    k0_pay6 (F := Ideal) j = Ideal.ofBits .f32 0x00000000#32 ∧ k0_pay7 (F := Ideal) j = Ideal.ofBits .f32 0x00000000#32
      ∧ k0_pay8 (F := Ideal) j = Ideal.ofBits .f32 0x00000000#32 := ⟨rfl, rfl, rfl⟩

end Cert.KernelIdeal.Tile

end
-- ==== Proof.Running.lean ====
/-
  The three running columns across a row tile.

  For a row tile the four column tiles are consecutive points t = 4·i, 4·i + 1, 4·i + 2, 4·i + 3. At the first of them a
  running column is the zero column plus the tile's row sums; at each later one it is what the point before left plus the
  tile's row sums. So after the fourth it holds  zero + (T₀ + T₁ + T₂ + T₃),  Tq the row sums of column tile q: addition
  on the extended reals is associative and commutative, whatever its arguments.
-/
import proofs.«137926_j21517786153378_2_alg».proof.Proof.Pieces
import proofs.«137926_j21517786153378_2_alg».proof.Proof.TileValues

set_option maxRecDepth 16384

noncomputable section

namespace Cert.KernelIdeal.Running

open Cert.KernelIdeal Cert.KernelIdeal.Gen Cert.KernelIdeal.GenP Idealize.ShloMosaic Idealize.ShloMosaic.TcCoe Idealize.SL.Sem
open Idealize.ShloMosaic.ValueIdx
open scoped BigOperators

section AnyValues

variable {F : FTy → Type} [FloatOps F] [Named F]
variable (m : (ℓ : Loc nD τ sig) → Buf (Elt F) ℓ) (c : Dev nD)

/-- The four output blocks after a first column tile: the score tile, and each running column started from zero. -/
theorem outs_first (t : Fin cfg0.N) (h0 : t.val % 4 = 0) :
    outsAt0 m c t.val t.isLt
      = (k0_pay2 (iblk m c 0 t) (iblk m c 1 t),
         k0_pay9 (iblk m c 0 t) (iblk m c 1 t) (iblk m c 2 t) (k0_pay6 (F := F)),
         k0_pay10 (iblk m c 0 t) (iblk m c 1 t) (iblk m c 2 t) (k0_pay7 (F := F)),
         k0_pay1 (k0_pay5 (iblk m c 0 t) (iblk m c 1 t) (iblk m c 2 t)) (k0_pay8 (F := F))) := by
  rw [outsAt0_A m c t h0,
    Pieces.first_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
    Pieces.first_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
    Pieces.first_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t),
    Pieces.first_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)]

/-- The four output blocks after a later column tile: the score tile, and each running column continued from what the
    point before (number `n`) left. -/
theorem outs_later (t : Fin cfg0.N) (h0 : ¬t.val % 4 = 0) (n : ℕ) (hn : n < cfg0.N) (hp : t.val - 1 = n) :
    outsAt0 m c t.val t.isLt
      = (k0_pay2 (iblk m c 0 t) (iblk m c 1 t),
         k0_pay9 (iblk m c 0 t) (iblk m c 1 t) (iblk m c 2 t) (outsAt0 m c n hn).2.1,
         k0_pay10 (iblk m c 0 t) (iblk m c 1 t) (iblk m c 2 t) (outsAt0 m c n hn).2.2.1,
         k0_pay1 (k0_pay5 (iblk m c 0 t) (iblk m c 1 t) (iblk m c 2 t)) (outsAt0 m c n hn).2.2.2) := by
  subst hp
  rw [outsAt0_B m c t h0,
    Pieces.later_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) _ _ _,
    Pieces.later_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) _ _ _,
    Pieces.later_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) _ _ _,
    Pieces.later_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) _ _ _]

/-- The score tile is the same term at every point. -/
theorem scores_at (t : Fin cfg0.N) : (outsAt0 m c t.val t.isLt).1 = k0_pay2 (iblk m c 0 t) (iblk m c 1 t) := by
  by_cases h0 : t.val % 4 = 0
  · rw [outs_first m c t h0]
  · rw [outs_later m c t h0 (t.val - 1) (Nat.lt_of_le_of_lt (Nat.sub_le _ _) t.isLt) rfl]

end AnyValues

/-! ## At the extended reals -/

variable (m : (ℓ : Loc nD τ sig) → Buf (Elt Ideal) ℓ) (c : Dev nD)

/-- Four steps of a running sum. -/
theorem chain4 (z T0 T1 T2 T3 a0 a1 a2 a3 : EReal) (h0 : a0 = z + T0) (h1 : a1 = a0 + T1) (h2 : a2 = a1 + T2)
    (h3 : a3 = a2 + T3) : a3 = z + (T0 + T1 + T2 + T3) := by
  subst h0 h1 h2 h3
  simp only [add_assoc]

/-- Row r of the positives' tile sums at point t. -/
def posTile (t : Fin cfg0.N) (r : Fin 1024) : EReal :=
  ∑ cc : Fin 1024, k0_pay4 (F := Ideal) (iblk m c 0 t) (iblk m c 1 t) (iblk m c 2 t) (ix2 r cc)

/-- Row r of the negatives' tile sums at point t. -/
def negTile (t : Fin cfg0.N) (r : Fin 1024) : EReal :=
  ∑ cc : Fin 1024, (k0_pay3 (F := Ideal) (iblk m c 0 t) (iblk m c 1 t) (ix2 r cc) - k0_pay4 (F := Ideal) (iblk m c 0 t) (iblk m c 1 t) (iblk m c 2 t) (ix2 r cc))

/-- Row r of the weighted tile sums at point t. -/
def weightedTile (t : Fin cfg0.N) (r : Fin 1024) : EReal :=
  ∑ cc : Fin 1024, k0_pay4 (F := Ideal) (iblk m c 0 t) (iblk m c 1 t) (iblk m c 2 t) (ix2 r cc) * k0_pay2 (F := Ideal) (iblk m c 0 t) (iblk m c 1 t) (ix2 r cc)

/-- The f32 zero. -/
abbrev z : EReal := Ideal.ofBits .f32 0x00000000#32

theorem pos_first (t : Fin cfg0.N) (h0 : t.val % 4 = 0) (r : Fin 1024) (u : Fin 1) :
    (outsAt0 (F := Ideal) m c t.val t.isLt).2.1 (ix2 r u) = z + posTile m c t r := by
  rw [outs_first m c t h0]
  exact Tile.posCol_apply (iblk m c 0 t) (iblk m c 1 t) (iblk m c 2 t) (k0_pay6 (F := Ideal)) r u

theorem pos_later (t : Fin cfg0.N) (h0 : ¬t.val % 4 = 0) (n : ℕ) (hn : n < cfg0.N) (hp : t.val - 1 = n) (r : Fin 1024) (u : Fin 1) :
    (outsAt0 (F := Ideal) m c t.val t.isLt).2.1 (ix2 r u) = (outsAt0 (F := Ideal) m c n hn).2.1 (ix2 r u) + posTile m c t r := by
  rw [outs_later m c t h0 n hn hp]
  exact Tile.posCol_apply (iblk m c 0 t) (iblk m c 1 t) (iblk m c 2 t) (outsAt0 (F := Ideal) m c n hn).2.1 r u

theorem neg_first (t : Fin cfg0.N) (h0 : t.val % 4 = 0) (r : Fin 1024) (u : Fin 1) :
    (outsAt0 (F := Ideal) m c t.val t.isLt).2.2.1 (ix2 r u) = z + negTile m c t r := by
  rw [outs_first m c t h0]
  exact Tile.negCol_apply (iblk m c 0 t) (iblk m c 1 t) (iblk m c 2 t) (k0_pay7 (F := Ideal)) r u

theorem neg_later (t : Fin cfg0.N) (h0 : ¬t.val % 4 = 0) (n : ℕ) (hn : n < cfg0.N) (hp : t.val - 1 = n) (r : Fin 1024) (u : Fin 1) :
    (outsAt0 (F := Ideal) m c t.val t.isLt).2.2.1 (ix2 r u) = (outsAt0 (F := Ideal) m c n hn).2.2.1 (ix2 r u) + negTile m c t r := by
  rw [outs_later m c t h0 n hn hp]
  exact Tile.negCol_apply (iblk m c 0 t) (iblk m c 1 t) (iblk m c 2 t) (outsAt0 (F := Ideal) m c n hn).2.2.1 r u

theorem weighted_first (t : Fin cfg0.N) (h0 : t.val % 4 = 0) (r : Fin 1024) (u : Fin 1) :
    (outsAt0 (F := Ideal) m c t.val t.isLt).2.2.2 (ix2 r u) = z + weightedTile m c t r := by
  rw [outs_first m c t h0]
  exact Tile.weightedCol_apply (iblk m c 0 t) (iblk m c 1 t) (iblk m c 2 t) (k0_pay8 (F := Ideal)) r u

theorem weighted_later (t : Fin cfg0.N) (h0 : ¬t.val % 4 = 0) (n : ℕ) (hn : n < cfg0.N) (hp : t.val - 1 = n) (r : Fin 1024) (u : Fin 1) :
    (outsAt0 (F := Ideal) m c t.val t.isLt).2.2.2 (ix2 r u) = (outsAt0 (F := Ideal) m c n hn).2.2.2 (ix2 r u) + weightedTile m c t r := by
  rw [outs_later m c t h0 n hn hp]
  exact Tile.weightedCol_apply (iblk m c 0 t) (iblk m c 1 t) (iblk m c 2 t) (outsAt0 (F := Ideal) m c n hn).2.2.2 r u

/-- Point 4·i + q. -/
def pt (i q : Fin 4) : Fin cfg0.N := ⟨4 * i.val + q.val, by have hN : cfg0.N = 16 := N_0; have := i.isLt; have := q.isLt; omega⟩

theorem pt_val (i q : Fin 4) : (pt i q).val = 4 * i.val + q.val := rfl

/-- After the fourth column tile of row tile i the positives' column holds zero plus the four tiles' row sums. -/
theorem pos_last (i : Fin 4) (r : Fin 1024) (u : Fin 1) :
    (outsAt0 (F := Ideal) m c (pt i 3).val (pt i 3).isLt).2.1 (ix2 r u)
      = z + (posTile m c (pt i 0) r + posTile m c (pt i 1) r + posTile m c (pt i 2) r + posTile m c (pt i 3) r) :=
  chain4 _ _ _ _ _ _ _ _ _
    (pos_first m c (pt i 0) (by rw [pt_val]; show (4 * i.val + 0) % 4 = 0; omega) r u)
    (pos_later m c (pt i 1) (by rw [pt_val]; show ¬(4 * i.val + 1) % 4 = 0; omega) _ (pt i 0).isLt (by rw [pt_val, pt_val]; show 4 * i.val + 1 - 1 = 4 * i.val + 0; omega) r u)
    (pos_later m c (pt i 2) (by rw [pt_val]; show ¬(4 * i.val + 2) % 4 = 0; omega) _ (pt i 1).isLt (by rw [pt_val, pt_val]; show 4 * i.val + 2 - 1 = 4 * i.val + 1; omega) r u)
    (pos_later m c (pt i 3) (by rw [pt_val]; show ¬(4 * i.val + 3) % 4 = 0; omega) _ (pt i 2).isLt (by rw [pt_val, pt_val]; show 4 * i.val + 3 - 1 = 4 * i.val + 2; omega) r u)

theorem neg_last (i : Fin 4) (r : Fin 1024) (u : Fin 1) :
    (outsAt0 (F := Ideal) m c (pt i 3).val (pt i 3).isLt).2.2.1 (ix2 r u)
      = z + (negTile m c (pt i 0) r + negTile m c (pt i 1) r + negTile m c (pt i 2) r + negTile m c (pt i 3) r) :=
  chain4 _ _ _ _ _ _ _ _ _
    (neg_first m c (pt i 0) (by rw [pt_val]; show (4 * i.val + 0) % 4 = 0; omega) r u)
    (neg_later m c (pt i 1) (by rw [pt_val]; show ¬(4 * i.val + 1) % 4 = 0; omega) _ (pt i 0).isLt (by rw [pt_val, pt_val]; show 4 * i.val + 1 - 1 = 4 * i.val + 0; omega) r u)
    (neg_later m c (pt i 2) (by rw [pt_val]; show ¬(4 * i.val + 2) % 4 = 0; omega) _ (pt i 1).isLt (by rw [pt_val, pt_val]; show 4 * i.val + 2 - 1 = 4 * i.val + 1; omega) r u)
    (neg_later m c (pt i 3) (by rw [pt_val]; show ¬(4 * i.val + 3) % 4 = 0; omega) _ (pt i 2).isLt (by rw [pt_val, pt_val]; show 4 * i.val + 3 - 1 = 4 * i.val + 2; omega) r u)

theorem weighted_last (i : Fin 4) (r : Fin 1024) (u : Fin 1) :
    (outsAt0 (F := Ideal) m c (pt i 3).val (pt i 3).isLt).2.2.2 (ix2 r u)
      = z + (weightedTile m c (pt i 0) r + weightedTile m c (pt i 1) r + weightedTile m c (pt i 2) r + weightedTile m c (pt i 3) r) :=
  chain4 _ _ _ _ _ _ _ _ _
    (weighted_first m c (pt i 0) (by rw [pt_val]; show (4 * i.val + 0) % 4 = 0; omega) r u)
    (weighted_later m c (pt i 1) (by rw [pt_val]; show ¬(4 * i.val + 1) % 4 = 0; omega) _ (pt i 0).isLt (by rw [pt_val, pt_val]; show 4 * i.val + 1 - 1 = 4 * i.val + 0; omega) r u)
    (weighted_later m c (pt i 2) (by rw [pt_val]; show ¬(4 * i.val + 2) % 4 = 0; omega) _ (pt i 1).isLt (by rw [pt_val, pt_val]; show 4 * i.val + 2 - 1 = 4 * i.val + 1; omega) r u)
    (weighted_later m c (pt i 3) (by rw [pt_val]; show ¬(4 * i.val + 3) % 4 = 0; omega) _ (pt i 2).isLt (by rw [pt_val, pt_val]; show 4 * i.val + 3 - 1 = 4 * i.val + 2; omega) r u)

end Cert.KernelIdeal.Running

end
-- ==== Proof.Blocks.lean ====
/-
  The grid and its blocks. The region runs over a 4 × 4 grid of points t = 4·i + q, the row tile i outermost: point t
  holds rows 1024·i … 1024·i + 1023 of the text matrix, rows 1024·q … of the image matrix and labels 1024·q … of the label
  row; it writes tile (i, q) of the score matrix and adds into block i of the three running columns.
  Here: the printed index maps decided once over the sixteen points, each input block's entry as an entry of the
  array the region finds (the array's row is block index × 1024 + the row inside the block), and each output block's
  entry as an entry of any array of the output's shape.
-/
import proofs.«137926_j21517786153378_2_alg».proof.Proof.GenP.KernelIdeal.Frame.Runs
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx

variable {F : FTy → Type} [FloatOps F] [Named F]
variable (m : (ℓ : Loc nD τ sig) → Buf (Elt F) ℓ) (c : Dev nD)

/-- The block index of every window at every point: row tile t / 4, column tile t % 4. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

theorem point_lt (t : Fin cfg0.N) : t.val < 16 := by
  have hN : cfg0.N = 16 := N_0
  have := t.isLt
  omega

/-- Row r of the text block at point t is row 1024·(t / 4) + r of the text array. -/
theorem text_block (t : Fin cfg0.N) (r : Fin 1024) (k : Fin 512) :
    iblk m c 0 t (ix2 r k)
      = V m c main_v17 (ix2 (⟨1024 * (t.val / 4) + r.val, by have := point_lt t; have := r.isLt; omega⟩ : Fin 4096) k) := by
  obtain ⟨e0, e1, -⟩ := idx_facts t
  unfold iblk
  rw [View.read_apply]
  show V m c main_v17 _ = V m c main_v17 _
  congr 1
  funext a
  apply Fin.ext
  match a with
  | ⟨0, _⟩ => show win0_0.index t (0 : Fin 2) * 1024 + 1 * r.val = 1024 * (t.val / 4) + r.val; rw [e0]; omega
  | ⟨1, _⟩ => show win0_0.index t (1 : Fin 2) * 512 + 1 * k.val = k.val; rw [e1]; omega

/-- Row cc of the image block at point t is row 1024·(t % 4) + cc of the image array. -/
theorem image_block (t : Fin cfg0.N) (cc : Fin 1024) (k : Fin 512) :
    iblk m c 1 t (ix2 cc k)
      = V m c main_v16 (ix2 (⟨1024 * (t.val % 4) + cc.val, by have := cc.isLt; omega⟩ : Fin 4096) k) := by
  obtain ⟨-, -, e0, e1, -⟩ := idx_facts t
  unfold iblk
  rw [View.read_apply]
  show V m c main_v16 _ = V m c main_v16 _
  congr 1
  funext a
  apply Fin.ext
  match a with
  | ⟨0, _⟩ => show win0_1.index t (0 : Fin 2) * 1024 + 1 * cc.val = 1024 * (t.val % 4) + cc.val; rw [e0]; omega
  | ⟨1, _⟩ => show win0_1.index t (1 : Fin 2) * 512 + 1 * k.val = k.val; rw [e1]; omega

/-- Label cc of the label block at point t is label 1024·(t % 4) + cc of the label row. -/
theorem label_block (t : Fin cfg0.N) (cc : Fin 1024) :
    iblk m c 2 t (ix2 (0 : Fin 1) cc)
      = V m c main_v26 (ix2 (0 : Fin 1) (⟨1024 * (t.val % 4) + cc.val, by have := cc.isLt; omega⟩ : Fin 4096)) := by
  obtain ⟨-, -, -, -, e0, e1, -⟩ := idx_facts t
  unfold iblk
  rw [View.read_apply]
  show V m c main_v26 _ = V m c main_v26 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * cc.val = 1024 * (t.val % 4) + cc.val; rw [e1]; omega

/-! ## The output windows' blocks, read off any array -/

/-- Entry (r, cc) of the score tile at point t is entry (1024·(t / 4) + r, 1024·(t % 4) + cc) of the score matrix. -/
theorem score_block (G : S4096x4096.Idx → Elt F .f32) (t : Fin cfg0.N) (r cc : Fin 1024) :
    ((cfg0.win 3).blk t).view.read (Elt F) G (ix2 r cc)
      = G (ix2 (⟨1024 * (t.val / 4) + r.val, by have := point_lt t; have := r.isLt; omega⟩ : Fin 4096)
            (⟨1024 * (t.val % 4) + cc.val, by have := cc.isLt; omega⟩ : Fin 4096)) := by
  obtain ⟨-, -, -, -, -, -, e0, e1, -⟩ := idx_facts t
  rw [View.read_apply]
  refine congrArg G (funext fun a => Fin.ext ?_)
  match a with
  | ⟨0, _⟩ => show win0_3.index t (0 : Fin 2) * 1024 + 1 * r.val = 1024 * (t.val / 4) + r.val; rw [e0]; omega
  | ⟨1, _⟩ => show win0_3.index t (1 : Fin 2) * 1024 + 1 * cc.val = 1024 * (t.val % 4) + cc.val; rw [e1]; omega

/-- Entry r of the first running column's block at point t is entry 1024·(t / 4) + r of the column. -/
theorem col4_block (G : S4096x1.Idx → Elt F .f32) (t : Fin cfg0.N) (r : Fin 1024) (u : Fin 1) :
    ((cfg0.win 4).blk t).view.read (Elt F) G (ix2 r u)
      = G (ix2 (⟨1024 * (t.val / 4) + r.val, by have := point_lt t; have := r.isLt; omega⟩ : Fin 4096) (0 : Fin 1)) := by
  obtain ⟨-, -, -, -, -, -, -, -, e0, e1, -⟩ := idx_facts t
  have hu := u.isLt
  rw [View.read_apply]
  refine congrArg G (funext fun a => Fin.ext ?_)
  match a with
  | ⟨0, _⟩ => show win0_4.index t (0 : Fin 2) * 1024 + 1 * r.val = 1024 * (t.val / 4) + r.val; rw [e0]; omega
  | ⟨1, _⟩ => show win0_4.index t (1 : Fin 2) * 1 + 1 * u.val = 0; rw [e1]; omega

/-- The same for the second running column. -/
theorem col5_block (G : S4096x1.Idx → Elt F .f32) (t : Fin cfg0.N) (r : Fin 1024) (u : Fin 1) :
    ((cfg0.win 5).blk t).view.read (Elt F) G (ix2 r u)
      = G (ix2 (⟨1024 * (t.val / 4) + r.val, by have := point_lt t; have := r.isLt; omega⟩ : Fin 4096) (0 : Fin 1)) := by
  obtain ⟨-, -, -, -, -, -, -, -, -, -, e0, e1, -⟩ := idx_facts t
  have hu := u.isLt
  rw [View.read_apply]
  refine congrArg G (funext fun a => Fin.ext ?_)
  match a with
  | ⟨0, _⟩ => show win0_5.index t (0 : Fin 2) * 1024 + 1 * r.val = 1024 * (t.val / 4) + r.val; rw [e0]; omega
  | ⟨1, _⟩ => show win0_5.index t (1 : Fin 2) * 1 + 1 * u.val = 0; rw [e1]; omega

/-- The same for the third running column. -/
theorem col6_block (G : S4096x1.Idx → Elt F .f32) (t : Fin cfg0.N) (r : Fin 1024) (u : Fin 1) :
    ((cfg0.win 6).blk t).view.read (Elt F) G (ix2 r u)
      = G (ix2 (⟨1024 * (t.val / 4) + r.val, by have := point_lt t; have := r.isLt; omega⟩ : Fin 4096) (0 : Fin 1)) := by
  obtain ⟨-, -, -, -, -, -, -, -, -, -, -, -, e0, e1⟩ := idx_facts t
  have hu := u.isLt
  rw [View.read_apply]
  refine congrArg G (funext fun a => Fin.ext ?_)
  match a with
  | ⟨0, _⟩ => show win0_6.index t (0 : Fin 2) * 1024 + 1 * r.val = 1024 * (t.val / 4) + r.val; rw [e0]; omega
  | ⟨1, _⟩ => show win0_6.index t (1 : Fin 2) * 1 + 1 * u.val = 0; rw [e1]; omega

end Cert.KernelIdeal.Blocks

end
-- ==== Proof.Covers.lean ====
/-
  Every entry of each output array lies in the block of a grid point that writes it back.

  The region runs over a 4 × 4 grid; point \`t\` has row tile \`t / 4\` and column tile \`t % 4\`. The score array
  (4096 × 4096) is cut in 1024 × 1024 blocks at block index \`(t / 4, t % 4)\` and is written back at every point, so
  entry \`(i₀, i₁)\` is written by the point \`4·(i₀ / 1024) + i₁ / 1024\`. The three column arrays (4096 × 1) are cut in
  1024 × 1 blocks at block index \`(t / 4, 0)\` and are written back at the last column tile only, so entry \`(i₀, 0)\`
  is written by the point \`4·(i₀ / 1024) + 3\`. A block's coordinate on an axis is the block index times the block's
  size plus the coordinate inside the block, so membership in a block is a pair of inequalities per axis.
-/
import proofs.«137926_j21517786153378_2_alg».proof.Proof.Gen.KernelIdeal.Points
import Idealize.ShloMosaic.Lib.Pipeline.Value
import Idealize.ShloMosaic.Lib.ValueIdx

noncomputable section

namespace Cert.KernelIdeal.Covers

open Cert.KernelIdeal Cert.KernelIdeal.Gen Idealize.ShloMosaic Idealize.ShloMosaic.ValueIdx

/-- The printed index maps of the four output windows, decided once over the sixteen grid points. -/
theorem out_idx : ∀ t : Fin cfg0.N, win0_3.index t (0 : Fin 2) = t.val / 4 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

/-- The grid has sixteen points. -/
theorem N_eq : grid0.N = 16 := by decide

/-! ## Membership in a block: each coordinate in the block's range on its axis -/

theorem mem_blk3 (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v27_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v27_1).slice (win0_4.rect t)).set ↔ _
  rw [View.set_slice_whole, Rect.mem_set_unit]
  exact Iff.rfl

theorem mem_blk5 (t : Fin cfg0.N) (i : S4096x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v27_2).slice (win0_5.rect t)).set ↔ _
  rw [View.set_slice_whole, Rect.mem_set_unit]
  exact Iff.rfl

theorem mem_blk6 (t : Fin cfg0.N) (i : S4096x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v27_3).slice (win0_6.rect t)).set ↔ _
  rw [View.set_slice_whole, Rect.mem_set_unit]
  exact Iff.rfl

/-! ## The covers -/

/-- Entry \`(i₀, i₁)\` of the score array is in the block of the point \`4·(i₀ / 1024) + i₁ / 1024\`, which writes back. -/
theorem cover_scores (i : S4096x4096.Idx) :
    ∃ t : Fin cfg0.N, (cfg0.win 3).flush t = true ∧ i ∈ ((cfg0.win 3).blk t).view.set := by
  have hN : cfg0.N = 16 := N_eq
  have hi0 : (i 0).val < 4096 := (i 0).isLt
  have hi1 : (i 1).val < 4096 := (i 1).isLt
  let t : Fin cfg0.N := ⟨4 * ((i 0).val / 1024) + (i 1).val / 1024, by rw [hN]; omega⟩
  have htv : t.val = 4 * ((i 0).val / 1024) + (i 1).val / 1024 := rfl
  obtain ⟨e0, e1, -⟩ := out_idx t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- Entry \`(i₀, 0)\` of the first column array is in the block of the point \`4·(i₀ / 1024) + 3\`, which writes back. -/
theorem cover_col4 (i : S4096x1.Idx) :
    ∃ t : Fin cfg0.N, (cfg0.win 4).flush t = true ∧ i ∈ ((cfg0.win 4).blk t).view.set := by
  have hN : cfg0.N = 16 := N_eq
  have hi0 : (i 0).val < 4096 := (i 0).isLt
  have hi1 : (i 1).val < 1 := (i 1).isLt
  let t : Fin cfg0.N := ⟨4 * ((i 0).val / 1024) + 3, by rw [hN]; omega⟩
  have htv : t.val = 4 * ((i 0).val / 1024) + 3 := rfl
  obtain ⟨-, -, e0, e1, -⟩ := out_idx t
  refine ⟨t, (flush0_4 t).2 (by omega), ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The same for the second column array. -/
theorem cover_col5 (i : S4096x1.Idx) :
    ∃ t : Fin cfg0.N, (cfg0.win 5).flush t = true ∧ i ∈ ((cfg0.win 5).blk t).view.set := by
  have hN : cfg0.N = 16 := N_eq
  have hi0 : (i 0).val < 4096 := (i 0).isLt
  have hi1 : (i 1).val < 1 := (i 1).isLt
  let t : Fin cfg0.N := ⟨4 * ((i 0).val / 1024) + 3, by rw [hN]; omega⟩
  have htv : t.val = 4 * ((i 0).val / 1024) + 3 := rfl
  obtain ⟨-, -, -, -, e0, e1, -⟩ := out_idx t
  refine ⟨t, (flush0_5 t).2 (by omega), ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- The same for the third column array. -/
theorem cover_col6 (i : S4096x1.Idx) :
    ∃ t : Fin cfg0.N, (cfg0.win 6).flush t = true ∧ i ∈ ((cfg0.win 6).blk t).view.set := by
  have hN : cfg0.N = 16 := N_eq
  have hi0 : (i 0).val < 4096 := (i 0).isLt
  have hi1 : (i 1).val < 1 := (i 1).isLt
  let t : Fin cfg0.N := ⟨4 * ((i 0).val / 1024) + 3, by rw [hN]; omega⟩
  have htv : t.val = 4 * ((i 0).val / 1024) + 3 := rfl
  obtain ⟨-, -, -, -, -, -, e0, e1⟩ := out_idx t
  refine ⟨t, (flush0_6 t).2 (by omega), ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

end Cert.KernelIdeal.Covers

end
-- ==== Proof.EntryArrays.lean ====
/-
  What the region finds in its input arrays.

  Before the region the kernel program runs a line of host operations on the arguments: it normalises the rows of
  both feature matrices (x / max(sqrt(Σ x²), ε)) and narrows the results to bf16, converts the comparison of pid
  with pid[0] to the label row, sums one minus the labels, and lays the label row out as a one-row matrix. These
  are, operation for operation and literal for literal, the first stages of the reference program. Each theorem
  reads one array at the region's entry as the reference's stage of the same arguments: the operations' results
  are unfolded in program order, and what is left is one term written twice (a narrowing to bf16 is the identity
  on the extended reals, and the two programs' shape facts are proofs of the same propositions).
-/
import proofs.«137926_j21517786153378_2_alg».proof.Proof.GenP.KernelIdeal.Frame.Runs
import proofs.«137926_j21517786153378_2_alg».proof.Proof.Gen.ReferenceIdeal.Read
import Idealize.ShloMosaic.Lib.StableHlo.Run

noncomputable section

namespace Cert.KernelIdeal.Entry

open Cert.KernelIdeal Cert.KernelIdeal.Gen Cert.KernelIdeal.GenP Idealize.ShloMosaic Idealize.ShloMosaic.TcCoe Idealize.SL.Sem

variable (m : (ℓ : Loc nD τ sig) → Buf (Elt Ideal) ℓ) (c : Dev nD)

/-- The normalised second feature matrix, narrowed to bf16 (the identity on the extended reals): the region's text rows. -/
theorem text_rows :
    (V m c main_v17 : S4096x512.Idx → EReal)
      = Cert.ReferenceIdeal.Read.val_main_v15 (F := Ideal) (m ((c.tc : Thread nD τ).loc main_arg1)) := by
  show StableHlo.after hostOps0 (fun b => m (c, b)) (Proc.devRef .tc main_v17) = _
  after_results_simp
  rfl

/-- The normalised first feature matrix, narrowed to bf16: the region's image rows. -/
theorem image_rows :
    (V m c main_v16 : S4096x512.Idx → EReal)
      = Cert.ReferenceIdeal.Read.val_main_v7 (F := Ideal) (m ((c.tc : Thread nD τ).loc main_arg0)) := by
  show StableHlo.after hostOps0 (fun b => m (c, b)) (Proc.devRef .tc main_v16) = _
  after_results_simp
  rfl

/-- The label row laid out as a one-row matrix. -/
theorem label_row :
    (V m c main_v26 : S1x4096.Idx → EReal)
      = shapeCast S1x4096 (Cert.ReferenceIdeal.Read.val_main_v22 (F := Ideal) (m ((c.tc : Thread nD τ).loc main_arg2)))
          shapeCasts_S4096_S1x4096 := by
  show StableHlo.after hostOps0 (fun b => m (c, b)) (Proc.devRef .tc main_v26) = _
  after_results_simp
  rfl

/-- The number of negatives: the sum of one minus the labels. -/
theorem neg_count :
    (V m c main_v25 : S_.Idx → EReal)
      = Cert.ReferenceIdeal.Read.val_main_v25 (F := Ideal) (m ((c.tc : Thread nD τ).loc main_arg2)) := by
  show StableHlo.after hostOps0 (fun b => m (c, b)) (Proc.devRef .tc main_v25) = _
  after_results_simp
  rfl

end Cert.KernelIdeal.Entry

end
-- ==== Proof.ScoreEntries.lean ====
/-
  Two readings of the reference program's arrays at an index given by coordinates.

  * The score matrix at (a, b) is the inner product of row a of the second feature matrix, normalised, with row b
    of the first, normalised: the contraction multiplies the normalised second matrix by the transpose of the
    normalised first, and a transpose read at (k, b) is the operand at (b, k).
  * The label row laid out as a one-row matrix reads, at (0, b), the label at b.
-/
import proofs.«137926_j21517786153378_2_alg».proof.Proof.Gen.ReferenceIdeal.Read
import Idealize.ShloMosaic.Lib.ValueIdx
import Idealize.ShloMosaic.Lib.ValueLayout
import Idealize.ShloMosaic.PureOps.Ideal.Laws

noncomputable section

namespace Cert.ScoreEntries

open Idealize.ShloMosaic Idealize.ShloMosaic.ValueIdx
open Cert.ReferenceIdeal Cert.ReferenceIdeal.Read
open scoped BigOperators

/-- The score at (a, b): Σₖ (normalised second matrix)(a, k) · (normalised first matrix)(b, k). -/
theorem scores_entry (x0 x1 : (⟨S4096x512, .f32⟩ : BufTy).Contents (Elt Ideal)) (a b : Fin 4096) :
    val_main_v17 (F := Ideal) x0 x1 (ix2 a b)
      = ∑ k : Fin 512, val_main_v15 (F := Ideal) x1 (ix2 a k) * val_main_v7 (F := Ideal) x0 (ix2 b k) := by
  rw [val_main_v17_apply]
  refine Finset.sum_congr rfl fun k _ => ?_
  rw [val_main_v16_apply]
  have el : lidx_main_v17 (ix2 a b) k = ix2 a k :=
    funext fun c => Fin.ext (by match c with | ⟨0, _⟩ => rfl | ⟨1, _⟩ => rfl)
  have er : idx_main_v16 (ridx_main_v17 (ix2 a b) k) = ix2 b k :=
    funext fun c => Fin.ext (by match c with | ⟨0, _⟩ => rfl | ⟨1, _⟩ => rfl)
  rw [el, er]

/-- The label row as a one-row matrix: at (0, b) it holds the label at b. -/
theorem labels_row (x2 : (⟨S4096, .i32⟩ : BufTy).Contents (Elt Ideal))
    {h : (⟨1, ![4096]⟩ : Shape).ShapeCasts ⟨2, ![1, 4096]⟩} (b : Fin 4096) :
    shapeCast (⟨2, ![1, 4096]⟩ : Shape) (val_main_v22 (F := Ideal) x2) h (ix2 (0 : Fin 1) b)
      = val_main_v22 (F := Ideal) x2 (ix1 b) :=
  shapeCast_a_1a_apply _ h 0 b

end Cert.ScoreEntries

end
-- ==== Proof.Spec.lean ====
/-
  The quantities of the uncertainty-weighted alignment loss, row by row, as functions of three arrays of extended reals:
  the score matrix `S` (4096 × 4096), the matrix `E` of the exponentials of the scores over the temperature, and the
  label row `L` (the entries of `pid` equal to `pid[0]`, as 0 / 1).

  For a query row `i` the image-to-text branch needs
    * `posSum`  : Σₖ E(i,k)·L(k)                      the mass of the positives,
    * the weighted mean of the positives' scores, which one program computes as the quotient
      `posWeighted / posSum` of two row sums and the other as the row sum of the normalised weights times the scores
      (`meanOfWeights`),
    * the mass of the negatives, which one program sums as E − E·L (`negSumSub`) and the other as E·(1 − L)
      (`negSumMask`).
  Each sum starts from the f32 zero, as both programs' reductions do.

  `perSample` is the loss of one row from these numbers, the row's first score `s0` (text-to-image branch), the count
  `nn` of negatives and the row's margin: both programs evaluate this same expression.
-/
import Idealize.ShloMosaic.PureOps.Ideal
import Idealize.ShloMosaic.Lib.ValueIdx

noncomputable section

namespace Cert.Spec

open Idealize.ShloMosaic Idealize.ShloMosaic.ValueIdx
open scoped BigOperators

/-- The temperature: the f32 nearest to 0.02. -/
def tau : EReal := Ideal.ofBits .f32 0x3CA3D70A#32
/-- The clamp on the exponential masses: the f32 nearest to 1e36. -/
def cap : EReal := Ideal.ofBits .f32 0x7B4097CE#32
/-- The f32 zero and one. -/
def zero : EReal := Ideal.ofBits .f32 0x00000000#32
def one : EReal := Ideal.ofBits .f32 0x3F800000#32

abbrev Mat : Type := (⟨2, ![4096, 4096]⟩ : Shape).Idx → EReal
abbrev Row : Type := (⟨1, ![4096]⟩ : Shape).Idx → EReal

/-- Σₖ E(i,k)·L(k): the mass of row `i`'s positives. -/
def posSum (E : Mat) (L : Row) (i : Fin 4096) : EReal := zero + ∑ k : Fin 4096, E (ix2 i k) * L (ix1 k)

/-- Σₖ (E(i,k)·L(k))·S(i,k): the positives' scores weighted by their masses. -/
def posWeighted (S E : Mat) (L : Row) (i : Fin 4096) : EReal :=
  zero + ∑ k : Fin 4096, E (ix2 i k) * L (ix1 k) * S (ix2 i k)

/-- Σₖ (E(i,k)·L(k) / posSum i)·S(i,k): the same weighted mean, each weight normalised before the sum. -/
def meanOfWeights (S E : Mat) (L : Row) (i : Fin 4096) : EReal :=
  zero + ∑ k : Fin 4096, Ideal.div (E (ix2 i k) * L (ix1 k)) (posSum E L i) * S (ix2 i k)

/-- Σₖ (E(i,k) − E(i,k)·L(k)): the mass of the negatives, as the whole minus the positives. -/
def negSumSub (E : Mat) (L : Row) (i : Fin 4096) : EReal :=
  zero + ∑ k : Fin 4096, (E (ix2 i k) - E (ix2 i k) * L (ix1 k))

/-- Σₖ E(i,k)·(1 − L(k)): the mass of the negatives, through the complementary mask. -/
def negSumMask (E : Mat) (L : Row) (i : Fin 4096) : EReal :=
  zero + ∑ k : Fin 4096, E (ix2 i k) * (one - L (ix1 k))

/-- One row's loss: `max(−a + τ·log(min(n, cap)) + mg, 0) + max(−s0 + τ·log(min(exp(s0/τ)·nn, cap)) + mg, 0)`,
    where `a` is the weighted mean of the positives' scores and `n` the mass of the negatives. -/
def perSample (a n s0 nn mg : EReal) : EReal :=
  max (-a + tau * Ideal.log (min n cap) + mg) zero
    + max (-s0 + tau * Ideal.log (min (Ideal.exp (Ideal.div s0 tau) * nn) cap) + mg) zero

end Cert.Spec

end
-- ==== Proof.RefRows.lean ====
/-
  The reference program's per-sample loss, read row by row.

  The reference computes, for the query row \`i\`,
    * the mass of the positives  Σₖ E(i,k)·L(k)  and the weights  E(i,k)·L(k) / that mass,
    * the weighted mean of the positives' scores as the row sum of the weights times the scores,
    * the mass of the negatives  Σₖ E(i,k)·(1 − L(k)),  clamped from above,
    * the image-to-text term  max(−mean + τ·log(clamped mass) + margin, 0),
    * the text-to-image term from the row's first score and the count of negatives,
  and adds the two terms. Here \`S\` is the score matrix, \`E = exp(S / τ)\` and \`L\` the label row.
  This module states that chain as one equation: the value at row \`i\` is \`Cert.Spec.perSample\` of the row quantities
  \`Cert.Spec.meanOfWeights\` and \`Cert.Spec.negSumMask\`. The score matrix, the exponentials, the labels and the count of
  negatives stay folded as the stages of the program that compute them.
-/
import proofs.«137926_j21517786153378_2_alg».proof.Proof.Gen.ReferenceIdeal.Read
import proofs.«137926_j21517786153378_2_alg».proof.Proof.Spec

noncomputable section

namespace Cert.RefRows

open Cert.ReferenceIdeal Cert.ReferenceIdeal.Gen Cert.ReferenceIdeal.Read Idealize.ShloMosaic Idealize.ShloMosaic.ValueIdx
open scoped BigOperators

/-- The two feature arrays, the identity row and the margin row of the program, as arrays of extended reals. -/
abbrev Feat : Type := (⟨S4096x512, .f32⟩ : BufTy).Contents (Elt Ideal)
abbrev Pid : Type := (⟨S4096, .i32⟩ : BufTy).Contents (Elt Ideal)
abbrev Marg : Type := (⟨S4096, .f32⟩ : BufTy).Contents (Elt Ideal)

/-! ## The exponentials -/

/-- \`E(j) = exp(S(j) / τ)\`. -/
theorem expo_apply (x0 x1 : (⟨S4096x512, .f32⟩ : BufTy).Contents (Elt Ideal)) (j : S4096x4096.Idx) :
    val_main_v28 (F := Ideal) x0 x1 j = Ideal.exp (Ideal.div (val_main_v17 (F := Ideal) x0 x1 j) Cert.Spec.tau) := by
  rw [val_main_v28_apply, val_main_v27_apply, val_main_v26_apply, val_main_cst_5_apply]
  simp only [Ideal.hostUnary_exp_def, Ideal.hostDivf_def, Ideal.ofBits_def]
  rfl

/-! ## Index equations: the program's layout operations read at \`ix1\` / \`ix2\` coordinates -/

theorem idx_row (i k : Fin 4096) : idx_main_v35 (ix1 i) k = ix2 i k :=
  funext fun a => Fin.ext (by match a with | ⟨0, _⟩ => rfl | ⟨1, _⟩ => rfl)
theorem idx_row42 (i k : Fin 4096) : idx_main_v42 (ix1 i) k = ix2 i k :=
  funext fun a => Fin.ext (by match a with | ⟨0, _⟩ => rfl | ⟨1, _⟩ => rfl)
theorem idx_row46 (i k : Fin 4096) : idx_main_v46 (ix1 i) k = ix2 i k :=
  funext fun a => Fin.ext (by match a with | ⟨0, _⟩ => rfl | ⟨1, _⟩ => rfl)
theorem idx_col30 (i k : Fin 4096) : idx_main_v29 (idx_main_v30 (ix2 i k)) = ix1 k :=
  funext fun a => Fin.ext (by match a with | ⟨0, _⟩ => rfl)
theorem idx_col33 (i k : Fin 4096) : idx_main_v32 (idx_main_v33 (ix2 i k)) = ix1 k :=
  funext fun a => Fin.ext (by match a with | ⟨0, _⟩ => rfl)
theorem idx_col40 (i k : Fin 4096) : idx_main_v39 (idx_main_v40 (ix2 i k)) = ix1 k :=
  funext fun a => Fin.ext (by match a with | ⟨0, _⟩ => rfl)
theorem idx_keep37 (i k : Fin 4096) : idx_main_v36 (idx_main_v37 (ix2 i k)) = ix1 i :=
  funext fun a => Fin.ext (by match a with | ⟨0, _⟩ => rfl)
theorem idx_first (i : Fin 4096) : idx_main_v55 (idx_main_v56 (ix1 i)) = ix2 i (0 : Fin 4096) :=
  funext fun a => Fin.ext (by match a with | ⟨0, _⟩ => exact Nat.div_one _ | ⟨1, _⟩ => rfl)

/-! ## The image-to-text branch -/

/-- The mass of row \`i\`'s positives. -/
theorem posSum_apply (x0 x1 : Feat) (x2 : Pid) (i : Fin 4096) :
    val_main_v35 (F := Ideal) x0 x1 x2 (ix1 i)
      = Cert.Spec.posSum (val_main_v28 (F := Ideal) x0 x1) (val_main_v22 (F := Ideal) x2) i := by
  rw [val_main_v35_apply, val_main_cst_6_apply]
  simp only [val_main_v34_apply, val_main_v33_apply, val_main_v32_apply, idx_row, idx_col33,
    Ideal.mulf_def, Ideal.ofBits_def]
  rfl

/-- The normalised weight of column \`k\` in row \`i\`. -/
theorem weight_apply (x0 x1 : Feat) (x2 : Pid) (i k : Fin 4096) :
    val_main_v38 (F := Ideal) x0 x1 x2 (ix2 i k)
      = Ideal.div (val_main_v28 (F := Ideal) x0 x1 (ix2 i k) * val_main_v22 (F := Ideal) x2 (ix1 k))
          (Cert.Spec.posSum (val_main_v28 (F := Ideal) x0 x1) (val_main_v22 (F := Ideal) x2) i) := by
  rw [val_main_v38_apply, val_main_v37_apply, val_main_v36_apply, idx_keep37, posSum_apply,
    val_main_v31_apply, val_main_v30_apply, val_main_v29_apply, idx_col30]
  simp only [Ideal.hostDivf_def, Ideal.mulf_def]

/-- The weighted mean of the positives' scores. -/
theorem mean_apply (x0 x1 : Feat) (x2 : Pid) (i : Fin 4096) :
    val_main_v46 (F := Ideal) x0 x1 x2 (ix1 i)
      = Cert.Spec.meanOfWeights (val_main_v17 (F := Ideal) x0 x1) (val_main_v28 (F := Ideal) x0 x1)
          (val_main_v22 (F := Ideal) x2) i := by
  rw [val_main_v46_apply, val_main_cst_9_apply]
  simp only [val_main_v45_apply, idx_row46, weight_apply, Ideal.mulf_def, Ideal.ofBits_def]
  rfl

/-- The mass of the negatives. -/
theorem negSum_apply (x0 x1 : Feat) (x2 : Pid) (i : Fin 4096) :
    val_main_v42 (F := Ideal) x0 x1 x2 (ix1 i)
      = Cert.Spec.negSumMask (val_main_v28 (F := Ideal) x0 x1) (val_main_v22 (F := Ideal) x2) i := by
  rw [val_main_v42_apply, val_main_cst_7_apply]
  simp only [val_main_v41_apply, val_main_v40_apply, val_main_v39_apply, idx_row42, idx_col40,
    val_main_v24_apply, val_main_v23_apply, val_main_cst_3_apply,
    Ideal.mulf_def, Ideal.subf_def, Ideal.ofBits_def]
  rfl

/-- The image-to-text term of row \`i\`. -/
theorem i2t_apply (x0 x1 : Feat) (x2 : Pid) (x3 : Marg) (i : Fin 4096) :
    val_main_v54 (F := Ideal) x0 x1 x2 x3 (ix1 i)
      = max (-(Cert.Spec.meanOfWeights (val_main_v17 (F := Ideal) x0 x1) (val_main_v28 (F := Ideal) x0 x1)
              (val_main_v22 (F := Ideal) x2) i)
            + Cert.Spec.tau * Ideal.log (min (Cert.Spec.negSumMask (val_main_v28 (F := Ideal) x0 x1)
              (val_main_v22 (F := Ideal) x2) i) Cert.Spec.cap)
            + x3 (ix1 i)) Cert.Spec.zero := by
  rw [val_main_v54_apply, val_main_v53_apply, val_main_cst_11_apply, val_main_v52_apply, val_main_v51_apply,
    val_main_v50_apply, val_main_v49_apply, val_main_cst_10_apply, val_main_v48_apply, val_main_v47_apply,
    val_main_v44_apply, val_main_v43_apply, val_main_cst_8_apply, mean_apply, negSum_apply]
  simp only [Ideal.maximumf_def, Ideal.minimumf_def, Ideal.addf_def, Ideal.mulf_def, Ideal.hostNegf_def,
    Ideal.negf_def, Ideal.hostUnary_log_def, Ideal.ofBits_def]
  rfl

/-! ## The text-to-image branch -/

/-- The text-to-image term of row \`i\`, from the row's first score and the count of negatives. -/
theorem t2i_apply (x0 x1 : Feat) (x2 : Pid) (x3 : Marg) (i : Fin 4096) :
    val_main_v71 (F := Ideal) x0 x1 x2 x3 (ix1 i)
      = max (-(val_main_v17 (F := Ideal) x0 x1 (ix2 i (0 : Fin 4096)))
            + Cert.Spec.tau * Ideal.log (min (Ideal.exp (Ideal.div (val_main_v17 (F := Ideal) x0 x1 (ix2 i (0 : Fin 4096)))
                Cert.Spec.tau) * val_main_v25 (F := Ideal) x2 ix0) Cert.Spec.cap)
            + x3 (ix1 i)) Cert.Spec.zero := by
  rw [val_main_v71_apply, val_main_v70_apply, val_main_cst_15_apply, val_main_v69_apply, val_main_v68_apply,
    val_main_v67_apply, val_main_v66_apply, val_main_cst_14_apply, val_main_v65_apply, val_main_v64_apply,
    val_main_v63_apply, val_main_v62_apply, val_main_cst_13_apply, val_main_v61_apply, val_main_v60_apply,
    val_main_v59_apply, val_main_v58_apply, val_main_v57_apply, val_main_cst_12_apply,
    val_main_v56_apply, val_main_v55_apply, idx_first]
  simp only [Ideal.maximumf_def, Ideal.minimumf_def, Ideal.addf_def, Ideal.mulf_def, Ideal.hostNegf_def,
    Ideal.negf_def, Ideal.hostUnary_log_def, Ideal.hostUnary_exp_def, Ideal.hostDivf_def, Ideal.ofBits_def]
  rfl

/-! ## The per-sample loss -/

/-- The reference's per-sample loss at row \`i\` is \`Cert.Spec.perSample\` of the row quantities. -/
theorem perSample_apply (x0 x1 : (⟨S4096x512, .f32⟩ : BufTy).Contents (Elt Ideal)) (x2 : (⟨S4096, .i32⟩ : BufTy).Contents (Elt Ideal))
    (x3 : (⟨S4096, .f32⟩ : BufTy).Contents (Elt Ideal)) (i : Fin 4096) :
    val_main_v72 (F := Ideal) x0 x1 x2 x3 (ix1 i)
      = Cert.Spec.perSample
          (Cert.Spec.meanOfWeights (val_main_v17 (F := Ideal) x0 x1) (val_main_v28 (F := Ideal) x0 x1)
            (val_main_v22 (F := Ideal) x2) i)
          (Cert.Spec.negSumMask (val_main_v28 (F := Ideal) x0 x1) (val_main_v22 (F := Ideal) x2) i)
          (val_main_v17 (F := Ideal) x0 x1 (ix2 i (0 : Fin 4096)))
          (val_main_v25 (F := Ideal) x2 ix0)
          (x3 (ix1 i)) := by
  rw [val_main_v72_apply, i2t_apply, t2i_apply]
  rfl

end Cert.RefRows

end
-- ==== Proof.RealEntries.lean ====
/-
  "Every entry is a real number": the property an array of extended reals must have before the laws of a
  field (distributivity, cancelling a nonzero factor, moving a factor across a finite sum) may be used on its
  entries. The extended reals satisfy none of those laws at `±∞`.
-/
import Mathlib.Data.EReal.Basic

namespace Cert.Spec

/-- Every entry of `f` is (the coercion of) a real number. -/
def IsReal {ι : Type} (f : ι → EReal) : Prop := ∀ i, ∃ r : ℝ, f i = (r : EReal)

end Cert.Spec
-- ==== Proof.LibReal.lean ====
/-
  Closure lemmas for "every entry is a real number" (`Cert.Spec.IsReal`) under the array operations of a
  host program read at the extended reals (`F := Ideal`), where a float is an element of `[-∞, +∞]` and
  every operation is its exact textbook one.

  The extended reals are not a ring: `⊤ + ⊥`, `0 · ⊤` have conventional values, and sums do not reassociate
  through them. A value proof over them therefore first shows that the arrays it handles hold real numbers only,
  and computes in `ℝ` from there. This file supplies that first step, operation by operation:

  * `IsPos f`                    : every entry of `f` is a positive real number (`IsPos.isReal`: so a real one);
  * `exists_real_sum`, `exists_nonneg_real_sum` : a finite sum of (nonnegative) reals is a (nonnegative) real;
  * `isReal_comp`, `isPos_comp` : a re-indexing (precomposition with any index map) of a real array is real —
    in particular `isReal_broadcastInDim` / `isPos_broadcastInDim` (`stablehlo.broadcast_in_dim`) and
    `isReal_gather` / `isPos_gather` (`stablehlo.gather`: each result element is one operand element);
  * `isReal_addf`, `isReal_mulf`, `isPos_mulf` : the elementwise sum and product;
  * `isReal_scatterAdd`, `isPos_scatterAdd` : the accumulating scatter — each operand element plus the finite
    sum of the update elements that land on it;
  * `isReal_dotGeneral` : `stablehlo.dot_general` — each element a finite sum of products;
  * `ofBits_one_f32`, `isPos_constant_one` : the f32 pattern `0x3F800000` is the number 1, so its splat is positive;
  * `isPos_rsqrt` : the reciprocal square root of a positive real `r` is the positive real `(√r)⁻¹` (at `0`, at a
    negative number and at `±∞` it is not a positive real, which is why positivity is tracked).
-/
import Idealize.ShloMosaic.PureOps.Ideal
import Idealize.ShloMosaic.PureOps.Ideal.Laws
import Idealize.ShloMosaic.Lib.ValueIdx
import proofs.«137926_j21517786153378_2_alg».proof.Proof.RealEntries

noncomputable section

namespace Cert.Real

open Idealize.ShloMosaic Cert.Spec

/-- Every entry is a positive real number. -/
def IsPos {ι : Type} (f : ι → EReal) : Prop := ∀ i, ∃ r : ℝ, 0 < r ∧ f i = (r : EReal)

/-- A positive real is a real. -/
theorem IsPos.isReal {ι : Type} {f : ι → EReal} (h : IsPos f) : IsReal f := fun i => by
  obtain ⟨r, _, hr⟩ := h i
  exact ⟨r, hr⟩

/-! ## Finite sums -/

/-- A finite sum of real numbers, taken in the extended reals, is the real number that is their sum. -/
theorem exists_real_sum {α : Type} (S : Finset α) (f : α → EReal) (h : ∀ j ∈ S, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨r, hr⟩ := h a (Finset.mem_cons_self a S)
    obtain ⟨t, ht⟩ := ih fun j hj => h j (Finset.mem_cons_of_mem hj)
    exact ⟨r + t, by rw [Finset.sum_cons, hr, ht, EReal.coe_add]⟩

/-- A finite sum of nonnegative real numbers is a nonnegative real number. -/
theorem exists_nonneg_real_sum {α : Type} (S : Finset α) (f : α → EReal)
    (h : ∀ j ∈ S, ∃ r : ℝ, 0 ≤ r ∧ f j = (r : EReal)) : ∃ r : ℝ, 0 ≤ r ∧ ∑ j ∈ S, f j = (r : EReal) := by
  induction S using Finset.cons_induction with
  | empty => exact ⟨0, le_refl 0, by rw [Finset.sum_empty, EReal.coe_zero]⟩
  | cons a S ha ih =>
    obtain ⟨r, hr0, hr⟩ := h a (Finset.mem_cons_self a S)
    obtain ⟨t, ht0, ht⟩ := ih fun j hj => h j (Finset.mem_cons_of_mem hj)
    exact ⟨r + t, add_nonneg hr0 ht0, by rw [Finset.sum_cons, hr, ht, EReal.coe_add]⟩

/-! ## Re-indexings: each result element is one operand element -/

theorem isReal_comp {ι κ : Type} {f : ι → EReal} (h : IsReal f) (g : κ → ι) : IsReal fun j => f (g j) :=
  fun j => h (g j)

theorem isPos_comp {ι κ : Type} {f : ι → EReal} (h : IsPos f) (g : κ → ι) : IsPos fun j => f (g j) :=
  fun j => h (g j)

/-- `stablehlo.broadcast_in_dim` reads one operand element per result element. -/
theorem isReal_broadcastInDim {s t : Shape} (dims : Fin s.rank → Fin t.rank) (h : s.BroadcastsInDim t dims)
    {x : s.Idx → EReal} (hx : IsReal x) : IsReal (broadcastInDim t dims h x) :=
  fun _ => hx _

theorem isPos_broadcastInDim {s t : Shape} (dims : Fin s.rank → Fin t.rank) (h : s.BroadcastsInDim t dims)
    {x : s.Idx → EReal} (hx : IsPos x) : IsPos (broadcastInDim t dims h x) :=
  fun _ => hx _

/-- `stablehlo.gather` reads one operand element per result element, whatever the indices hold. -/
theorem isReal_gather {s si t : Shape} {w : Nat} (d : GatherDims s si t) {x : s.Idx → EReal} (idx : IVec si w)
    (hx : IsReal x) : IsReal (Host.gather d x idx) :=
  fun _ => hx _

theorem isPos_gather {s si t : Shape} {w : Nat} (d : GatherDims s si t) {x : s.Idx → EReal} (idx : IVec si w)
    (hx : IsPos x) : IsPos (Host.gather d x idx) :=
  fun _ => hx _

/-! ## Elementwise sum and product -/

theorem isReal_addf {s : Shape} {φ : FTy} {x y : FVec Ideal s φ} (hx : IsReal x) (hy : IsReal y) :
    IsReal (addf (F := Ideal) x y) := fun i => by
  obtain ⟨a, ha⟩ := hx i
  obtain ⟨b, hb⟩ := hy i
  exact ⟨a + b, by show x i + y i = _; rw [ha, hb, EReal.coe_add]⟩

theorem isReal_mulf {s : Shape} {φ : FTy} {x y : FVec Ideal s φ} (hx : IsReal x) (hy : IsReal y) :
    IsReal (mulf (F := Ideal) x y) := fun i => by
  obtain ⟨a, ha⟩ := hx i
  obtain ⟨b, hb⟩ := hy i
  exact ⟨a * b, by show x i * y i = _; rw [ha, hb, EReal.coe_mul]⟩

theorem isPos_mulf {s : Shape} {φ : FTy} {x y : FVec Ideal s φ} (hx : IsPos x) (hy : IsPos y) :
    IsPos (mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

/-! ## The accumulating scatter: an operand element plus the updates that land on it -/

theorem isReal_scatterAdd {s si u : Shape} {φ : FTy} {w : Nat} (d : ScatterDims s si u) {x : FVec Ideal s φ}
    (idx : IVec si w) {upd : FVec Ideal u φ} (hx : IsReal x) (hu : IsReal upd) :
    IsReal (Host.scatterAdd (F := Ideal) d x idx upd) := fun i => by
  have key : ∀ S : Finset u.Idx, ∃ r : ℝ, x i + ∑ j ∈ S, upd j = (r : EReal) := fun S => by
    obtain ⟨a, ha⟩ := hx i
    obtain ⟨t, ht⟩ := exists_real_sum S upd fun j _ => hu j
    exact ⟨a + t, by rw [ha, ht, EReal.coe_add]⟩
  exact key _

/-- Positive operand elements and positive updates (a count of ones onto ones, say) give positive sums. -/
theorem isPos_scatterAdd {s si u : Shape} {φ : FTy} {w : Nat} (d : ScatterDims s si u) {x : FVec Ideal s φ}
    (idx : IVec si w) {upd : FVec Ideal u φ} (hx : IsPos x) (hu : IsPos upd) :
    IsPos (Host.scatterAdd (F := Ideal) d x idx upd) := fun i => by
  have key : ∀ S : Finset u.Idx, ∃ r : ℝ, 0 < r ∧ x i + ∑ j ∈ S, upd j = (r : EReal) := fun S => by
    obtain ⟨a, ha0, ha⟩ := hx i
    obtain ⟨t, ht0, ht⟩ := exists_nonneg_real_sum S upd fun j _ => by
      obtain ⟨b, hb0, hb⟩ := hu j
      exact ⟨b, hb0.le, hb⟩
    exact ⟨a + t, add_pos_of_pos_of_nonneg ha0 ht0, by rw [ha, ht, EReal.coe_add]⟩
  exact key _

/-! ## The contraction: a finite sum of products -/

theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  obtain ⟨t, ht⟩ := exists_real_sum Finset.univ (fun k : d.contr.Idx => l (d.lhsIdx j k) * r (d.rhsIdx j k))
    fun k _ => by
      obtain ⟨a, ha⟩ := hl (d.lhsIdx j k)
      obtain ⟨b, hb⟩ := hr (d.rhsIdx j k)
      exact ⟨a * b, by rw [ha, hb, EReal.coe_mul]⟩
  exact ⟨t, (Ideal.dotGeneral_apply d prec .single l r j).trans ht⟩

/-! ## The constant one, and the reciprocal square root of positive numbers -/

/-- The f32 pattern `0x3F800000` denotes the number 1. -/
theorem ofBits_one_f32 : Ideal.ofBits .f32 0x3F800000#32 = 1 := by
  simp [Ideal.ofBits, Ideal.ieee, -EReal.coe_mul]; norm_num

theorem isPos_constant_one (s : Shape) : IsPos (constant (F := Ideal) s .f32 0x3F800000#32) := fun _ =>
  ⟨1, one_pos, by show Ideal.ofBits .f32 0x3F800000#32 = _; rw [ofBits_one_f32, EReal.coe_one]⟩

/-- At a positive real `r` the reciprocal square root is the positive real `(√r)⁻¹`. -/
theorem isPos_rsqrt {s : Shape} {φ : FTy} {x : FVec Ideal s φ} (hx : IsPos x) :
    IsPos (Host.rsqrt (F := Ideal) x) := fun i => by
  obtain ⟨r, hr, hxi⟩ := hx i
  refine ⟨(Real.sqrt r)⁻¹, inv_pos.mpr (Real.sqrt_pos.mpr hr), ?_⟩
  show Ideal.rsqrt (x i) = _
  rw [hxi, Ideal.rsqrt_coe, if_neg (not_lt.mpr hr.le), if_neg hr.ne']

end Cert.Real

end
-- ==== Proof.RowLaws.lean ====
/-
  Row laws over the extended reals: the named f32 constants as numbers, division by the temperature as a
  product with its reciprocal, and the two places where the programs sum a row in different ways —
  the negatives' mass (E − E·L against E·(1 − L)) and the weighted mean of the positives' scores
  (quotient of two row sums against the row sum of normalised weights).

  The extended reals are not a field, so each law is proved by naming the real numbers the entries are,
  doing the algebra in ℝ, and coercing back.
-/
import Idealize.ShloMosaic.PureOps.Ideal
import Idealize.ShloMosaic.PureOps.Ideal.Laws
import Idealize.ShloMosaic.Lib.ValueIdx
import proofs.«137926_j21517786153378_2_alg».proof.Proof.Spec
import proofs.«137926_j21517786153378_2_alg».proof.Proof.RealEntries
import proofs.«137926_j21517786153378_2_alg».proof.Proof.LibReal

noncomputable section

namespace Cert.RowLaws

open Cert.Spec Idealize.ShloMosaic Idealize.ShloMosaic.ValueIdx
open scoped BigOperators

/-! ## The constants -/

/-- The f32 zero word is the number 0. -/
theorem zero_eq : Cert.Spec.zero = 0 := Ideal.ofBits_zero_f32

/-- The word `0x3F800000` is the number 1. -/
theorem one_eq : Cert.Spec.one = 1 := Cert.Real.ofBits_one_f32

/-- The word `0x3CA3D70A`: exponent field 121, fraction field `0x23D70A`, so
    `(2^23 + 2348810) · 2^(121 − 127 − 23) = 10737418 / 2^29 = 5368709 / 2^28`. -/
theorem tau_eq : Cert.Spec.tau = ((5368709 / 268435456 : ℝ) : EReal) := by
  unfold Cert.Spec.tau
  simp [Ideal.ofBits, Ideal.ieee, -EReal.coe_mul]; norm_num

/-- Dividing by the temperature is multiplying by its reciprocal, at every extended real. -/
theorem mul_invTau (s : EReal) : s * ((268435456 / 5368709 : ℝ) : EReal) = Ideal.div s Cert.Spec.tau := by
  rw [tau_eq, Ideal.div_coe (by norm_num) s]
  norm_num

/-! ## Coercion of a finite sum of reals -/

/-- The coercion ℝ → [−∞, +∞] commutes with finite sums. -/
private theorem coe_sum {α : Type} (T : Finset α) (f : α → ℝ) :
    ∑ j ∈ T, ((f j : ℝ) : EReal) = ((∑ j ∈ T, f j : ℝ) : EReal) := by
  induction T using Finset.cons_induction with
  | empty => rw [Finset.sum_empty, Finset.sum_empty, EReal.coe_zero]
  | cons a T ha ih => rw [Finset.sum_cons, Finset.sum_cons, ih, EReal.coe_add]

/-- A 0 / 1 label is a real number that is 0 or 1. -/
private theorem label_real (L : Row) (hL : ∀ k : Fin 4096, L (ix1 k) = 0 ∨ L (ix1 k) = 1) (k : Fin 4096) :
    ∃ r : ℝ, (r = 0 ∨ r = 1) ∧ L (ix1 k) = (r : EReal) := by
  rcases hL k with h | h
  · exact ⟨0, Or.inl rfl, by rw [h, EReal.coe_zero]⟩
  · exact ⟨1, Or.inr rfl, by rw [h, EReal.coe_one]⟩

/-! ## The negatives' mass -/

/-- Termwise `e·(1 − l) = e − e·l` for a real `e` and `l ∈ {0, 1}`. -/
theorem negSumMask_eq (E : Mat) (L : Row) (i : Fin 4096)
    (hE : ∀ k : Fin 4096, ∃ r : ℝ, E (ix2 i k) = (r : EReal))
    (hL : ∀ k : Fin 4096, L (ix1 k) = 0 ∨ L (ix1 k) = 1) :
    negSumMask E L i = negSumSub E L i := by
  unfold negSumMask negSumSub
  congr 1
  refine Finset.sum_congr rfl fun k _ => ?_
  obtain ⟨e, he⟩ := hE k
  rw [he, one_eq]
  rcases hL k with h | h
  · rw [h, sub_zero, mul_one, mul_zero, sub_zero]
  · rw [h, mul_one, ← EReal.coe_one, ← EReal.coe_sub, ← EReal.coe_sub, sub_self, sub_self, EReal.coe_zero,
      mul_zero]

/-! ## The weighted mean of the positives' scores -/

/-- With real scores `s`, positive real masses `e` and labels `l ∈ {0, 1}`, `l 0 = 1`: the positives' mass
    `P = Σ e·l` is a positive real, so `Σ (e·l / P)·s = (Σ e·l·s) / P`. -/
theorem meanOfWeights_eq (S E : Mat) (L : Row) (i : Fin 4096)
    (hS : ∀ k : Fin 4096, ∃ r : ℝ, S (ix2 i k) = (r : EReal))
    (hE : ∀ k : Fin 4096, ∃ r : ℝ, 0 < r ∧ E (ix2 i k) = (r : EReal))
    (hL : ∀ k : Fin 4096, L (ix1 k) = 0 ∨ L (ix1 k) = 1)
    (hL0 : L (ix1 (0 : Fin 4096)) = 1) :
    meanOfWeights S E L i = Ideal.div (posWeighted S E L i) (posSum E L i) := by
  choose s hs using hS
  choose e he0 he using hE
  choose l hl01 hl using label_real L hL
  -- the label of the first column is the real number 1
  have hl0 : l 0 = 1 := by
    have h := hl 0
    rw [hL0, ← EReal.coe_one] at h
    exact (EReal.coe_eq_coe_iff.mp h).symm
  -- every term of the positives' mass is nonnegative
  have hnn : ∀ k : Fin 4096, 0 ≤ e k * l k := fun k => by
    rcases hl01 k with h | h
    · rw [h, mul_zero]
    · rw [h, mul_one]; exact (he0 k).le
  -- the positives' mass is a positive real: it contains e 0 > 0
  have hP : 0 < ∑ k : Fin 4096, e k * l k := by
    have h1 : e 0 * l 0 ≤ ∑ k : Fin 4096, e k * l k :=
      Finset.single_le_sum (f := fun k => e k * l k) (fun k _ => hnn k) (Finset.mem_univ 0)
    rw [hl0, mul_one] at h1
    exact lt_of_lt_of_le (he0 0) h1
  -- the three row sums as coerced reals
  have hpos : posSum E L i = ((∑ k : Fin 4096, e k * l k : ℝ) : EReal) := by
    unfold posSum
    rw [zero_eq, zero_add, ← coe_sum]
    exact Finset.sum_congr rfl fun k _ => by rw [he, hl, EReal.coe_mul]
  have hw : posWeighted S E L i = ((∑ k : Fin 4096, e k * l k * s k : ℝ) : EReal) := by
    unfold posWeighted
    rw [zero_eq, zero_add, ← coe_sum]
    exact Finset.sum_congr rfl fun k _ => by rw [he, hl, hs, EReal.coe_mul, EReal.coe_mul]
  have hm : meanOfWeights S E L i
      = ((∑ k : Fin 4096, e k * l k * (1 / ∑ j : Fin 4096, e j * l j) * s k : ℝ) : EReal) := by
    unfold meanOfWeights
    rw [zero_eq, zero_add, hpos,
      ← coe_sum Finset.univ fun k : Fin 4096 => e k * l k * (1 / ∑ j : Fin 4096, e j * l j) * s k]
    exact Finset.sum_congr rfl fun k _ => by
      rw [he, hl, hs, Ideal.div_coe hP.ne', EReal.coe_mul, EReal.coe_mul, EReal.coe_mul]
  rw [hm, hw, hpos, Ideal.div_coe hP.ne', ← EReal.coe_mul, Finset.sum_mul]
  congr 1
  exact Finset.sum_congr rfl fun k _ => by ring

end Cert.RowLaws

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.RealFacts.lean ====
/-
  Under the precondition, the arrays the row laws are applied to hold real numbers.

  The reference program normalises the rows of both feature matrices (x / max(sqrt(Σ x²), ε)), multiplies the
  two normalised matrices into the score matrix, and exponentiates the scores over the temperature. On the
  extended reals none of the field laws holds at ±∞, so before any algebra one shows that every array involved
  holds real numbers only:

  * a finite x gives Σ x² a nonnegative real, its square root a nonnegative real, the maximum with ε > 0 a
    positive real, and x divided by a positive real a real;
  * a contraction of real arrays is real;
  * a real s divided by the temperature τ > 0 is real, and its exponential is a positive real;
  * the label row, the conversion of a one-bit comparison, holds 0 and 1 only, and its first entry compares
    pid[0] with itself.

  The first part of the file is the closure lemmas, generic in the shape; the second walks the stages.
-/
import proofs.«137926_j21517786153378_2_alg».proof.Proof.Gen.ReferenceIdeal.Read
import proofs.«137926_j21517786153378_2_alg».proof.Pre_finite_inputs
import proofs.«137926_j21517786153378_2_alg».proof.Proof.RealEntries
import proofs.«137926_j21517786153378_2_alg».proof.Proof.LibReal
import proofs.«137926_j21517786153378_2_alg».proof.Proof.LibFiniteReal

noncomputable section

namespace Cert.RealFacts

open Idealize.ShloMosaic Idealize.ShloMosaic.ValueIdx Cert.Spec Cert.Real
open Cert.ReferenceIdeal Cert.ReferenceIdeal.Read

/-! ## Closure lemmas, generic in the shape -/

/-- Every entry is a nonnegative real number. -/
def IsNonneg {ι : Type} (f : ι → EReal) : Prop := ∀ i, ∃ r : ℝ, 0 ≤ r ∧ f i = (r : EReal)

theorem IsNonneg.isReal {ι : Type} {f : ι → EReal} (h : IsNonneg f) : IsReal f := fun i => by
  obtain ⟨r, _, hr⟩ := h i
  exact ⟨r, hr⟩

theorem IsPos.isNonneg {ι : Type} {f : ι → EReal} (h : IsPos f) : IsNonneg f := fun i => by
  obtain ⟨r, hr0, hr⟩ := h i
  exact ⟨r, hr0.le, hr⟩

/-- A re-indexing of a nonnegative array is nonnegative. -/
theorem isNonneg_broadcastInDim {s t : Shape} (dims : Fin s.rank → Fin t.rank) (h : s.BroadcastsInDim t dims)
    {x : s.Idx → EReal} (hx : IsNonneg x) : IsNonneg (broadcastInDim t dims h x) :=
  fun _ => hx _

/-- A transpose reads one operand element per result element. -/
theorem isReal_transpose {s t : Shape} (perm : List (Fin s.rank)) (h : s.Transposes perm t)
    {x : s.Idx → EReal} (hx : IsReal x) : IsReal (transpose t perm x h) :=
  fun _ => hx _

/-- The square of a real number is a nonnegative real number. -/
theorem isNonneg_mulf_self {s : Shape} {φ : FTy} {x : FVec Ideal s φ} (hx : IsReal x) :
    IsNonneg (mulf (F := Ideal) x x) := fun i => by
  obtain ⟨a, ha⟩ := hx i
  exact ⟨a * a, mul_self_nonneg a, by show x i * x i = _; rw [ha, EReal.coe_mul]⟩

/-- The host's float sum of real numbers from a real initial value is a real number. -/
theorem isReal_reduceAdd {s t u : Shape} {φ : FTy} {axes : List (Fin s.rank)} {x : FVec Ideal s φ}
    {init : u.Idx → Ideal φ} (hx : IsReal x) (hi : IsReal init) (h : s.ReducesTo axes t) (hu : 0 < u.numel) :
    IsReal (Host.reduceAdd (F := Ideal) x init h hu) := fun j => by
  obtain ⟨a, ha⟩ := hi (Shape.Idx.first hu)
  obtain ⟨b, hb⟩ := exists_real_sum (Finset.univ.filter fun i => h.drop i = j) x fun i _ => hx i
  exact ⟨a + b, by
    show init (Shape.Idx.first hu) + ∑ i ∈ Finset.univ.filter (fun i => h.drop i = j), x i = _
    rw [ha, hb, EReal.coe_add]⟩

/-- The host's float sum of nonnegative reals from a nonnegative initial value is a nonnegative real. -/
theorem isNonneg_reduceAdd {s t u : Shape} {φ : FTy} {axes : List (Fin s.rank)} {x : FVec Ideal s φ}
    {init : u.Idx → Ideal φ} (hx : IsNonneg x) (hi : IsNonneg init) (h : s.ReducesTo axes t) (hu : 0 < u.numel) :
    IsNonneg (Host.reduceAdd (F := Ideal) x init h hu) := fun j => by
  obtain ⟨a, ha0, ha⟩ := hi (Shape.Idx.first hu)
  obtain ⟨b, hb0, hb⟩ := exists_nonneg_real_sum (Finset.univ.filter fun i => h.drop i = j) x fun i _ => hx i
  exact ⟨a + b, add_nonneg ha0 hb0, by
    show init (Shape.Idx.first hu) + ∑ i ∈ Finset.univ.filter (fun i => h.drop i = j), x i = _
    rw [ha, hb, EReal.coe_add]⟩

/-- At a nonnegative real r the square root is the nonnegative real √r. -/
theorem isNonneg_sqrt {s : Shape} {φ : FTy} {x : FVec Ideal s φ} (hx : IsNonneg x) :
    IsNonneg (Host.sqrt (F := Ideal) x) := fun i => by
  obtain ⟨r, hr, hxi⟩ := hx i
  refine ⟨Real.sqrt r, Real.sqrt_nonneg r, ?_⟩
  show Ideal.sqrt (x i) = _
  rw [hxi, Ideal.sqrt_coe, if_neg (not_lt.mpr hr)]

/-- The maximum of a nonnegative real and a positive real is a positive real. -/
theorem isPos_maximumf {s : Shape} {φ : FTy} {x y : FVec Ideal s φ} (hx : IsNonneg x) (hy : IsPos y) :
    IsPos (maximumf (F := Ideal) x y) := fun i => by
  obtain ⟨a, _, ha⟩ := hx i
  obtain ⟨b, hb0, hb⟩ := hy i
  refine ⟨max a b, lt_max_of_lt_right hb0, ?_⟩
  show max (x i) (y i) = _
  rw [ha, hb]
  rcases le_total a b with hab | hab
  · rw [max_eq_right hab, max_eq_right (EReal.coe_le_coe_iff.2 hab)]
  · rw [max_eq_left hab, max_eq_left (EReal.coe_le_coe_iff.2 hab)]

/-- A real number divided by a positive real number is a real number. -/
theorem isReal_divf {s : Shape} {φ : FTy} {x y : FVec Ideal s φ} (hx : IsReal x) (hy : IsPos y) :
    IsReal (Host.divf (F := Ideal) x y) := fun i => by
  obtain ⟨a, ha⟩ := hx i
  obtain ⟨b, hb0, hb⟩ := hy i
  refine ⟨a * (1 / b), ?_⟩
  show Ideal.div (x i) (y i) = _
  rw [ha, hb, Ideal.div_coe hb0.ne', EReal.coe_mul]

/-- The exponential of a real number r is the positive real exp r. -/
theorem isPos_exp {s : Shape} {φ : FTy} {x : FVec Ideal s φ} (hx : IsReal x) :
    IsPos (Host.exp (F := Ideal) x) := fun i => by
  obtain ⟨r, hr⟩ := hx i
  refine ⟨Real.exp r, Real.exp_pos r, ?_⟩
  show Ideal.exp (x i) = _
  rw [hr, Ideal.exp_coe]

/-- The splat of a pattern that denotes a positive real is positive. -/
theorem isPos_constant (s : Shape) (b : BitVec 32) {r : ℝ} (hr : 0 < r) (hb : Ideal.ofBits .f32 b = (r : EReal)) :
    IsPos (constant (F := Ideal) s .f32 b) := fun _ => ⟨r, hr, hb⟩

/-- The splat of a pattern that denotes a nonnegative real is nonnegative. -/
theorem isNonneg_constant (s : Shape) (b : BitVec 32) {r : ℝ} (hr : 0 ≤ r) (hb : Ideal.ofBits .f32 b = (r : EReal)) :
    IsNonneg (constant (F := Ideal) s .f32 b) := fun _ => ⟨r, hr, hb⟩

/-! ## The three constants -/

/-- The f32 zero. -/
theorem ofBits_zero : Ideal.ofBits .f32 0x00000000#32 = ((0 : ℝ) : EReal) := by
  rw [Ideal.ofBits_zero_f32, EReal.coe_zero]

/-- The normalisation's floor ε: the f32 nearest to 1e-12. -/
theorem ofBits_eps : Ideal.ofBits .f32 0x2B8CBCCC#32 = ((9223372 / 2 ^ 63 : ℝ) : EReal) := by
  simp [Ideal.ofBits, Ideal.ieee, -EReal.coe_mul]; norm_num

/-- The temperature τ: the f32 nearest to 0.02. -/
theorem ofBits_tau : Ideal.ofBits .f32 0x3CA3D70A#32 = ((5368709 / 268435456 : ℝ) : EReal) := by
  simp [Ideal.ofBits, Ideal.ieee, -EReal.coe_mul]; norm_num

/-! ## The normalised feature matrices -/

/-- The row norm floored at ε is a positive real: of the first matrix (stages 0 to 5). -/
theorem norm0_pos {x0 : (⟨S4096x512, .f32⟩ : BufTy).Contents (Elt Ideal)} (h0 : IsReal x0) :
    IsPos (val_main_v5 (F := Ideal) x0) := by
  unfold val_main_v5 val_main_v4 val_main_v3 val_main_v2 val_main_v1 val_main_v0 val_main_cst val_main_cst_0
  exact isPos_maximumf
    (isNonneg_sqrt (isNonneg_broadcastInDim _ _
      (isNonneg_reduceAdd (isNonneg_mulf_self h0) (isNonneg_constant _ _ le_rfl ofBits_zero) _ _)))
    (isPos_broadcastInDim _ _ (isPos_constant _ _ (by norm_num) ofBits_eps))

/-- The first matrix with its rows normalised (stage 7) is real. -/
theorem normalized0_real {x0 : (⟨S4096x512, .f32⟩ : BufTy).Contents (Elt Ideal)} (h0 : IsReal x0) :
    IsReal (val_main_v7 (F := Ideal) x0) := by
  unfold val_main_v7 val_main_v6
  exact isReal_divf h0 (isPos_broadcastInDim _ _ (norm0_pos h0))

/-- The row norm floored at ε is a positive real: of the second matrix (stages 8 to 13). -/
theorem norm1_pos {x1 : (⟨S4096x512, .f32⟩ : BufTy).Contents (Elt Ideal)} (h1 : IsReal x1) :
    IsPos (val_main_v13 (F := Ideal) x1) := by
  unfold val_main_v13 val_main_v12 val_main_v11 val_main_v10 val_main_v9 val_main_v8 val_main_cst_1 val_main_cst_2
  exact isPos_maximumf
    (isNonneg_sqrt (isNonneg_broadcastInDim _ _
      (isNonneg_reduceAdd (isNonneg_mulf_self h1) (isNonneg_constant _ _ le_rfl ofBits_zero) _ _)))
    (isPos_broadcastInDim _ _ (isPos_constant _ _ (by norm_num) ofBits_eps))

/-- The second matrix with its rows normalised (stage 15) is real. -/
theorem normalized1_real {x1 : (⟨S4096x512, .f32⟩ : BufTy).Contents (Elt Ideal)} (h1 : IsReal x1) :
    IsReal (val_main_v15 (F := Ideal) x1) := by
  unfold val_main_v15 val_main_v14
  exact isReal_divf h1 (isPos_broadcastInDim _ _ (norm1_pos h1))

/-! ## The scores and their exponentials -/

/-- The score matrix, the product of the normalised second matrix with the transposed normalised first, is real. -/
theorem scores_real {x0 x1 : (⟨S4096x512, .f32⟩ : BufTy).Contents (Elt Ideal)} (h0 : IsReal x0) (h1 : IsReal x1) :
    IsReal (val_main_v17 (F := Ideal) x0 x1) := by
  unfold val_main_v17 val_main_v16
  exact isReal_dotGeneral _ _ (normalized1_real h1) (isReal_transpose _ _ (normalized0_real h0))

/-- The exponentials of the scores over the temperature are positive reals. -/
theorem expo_pos {x0 x1 : (⟨S4096x512, .f32⟩ : BufTy).Contents (Elt Ideal)} (h0 : IsReal x0) (h1 : IsReal x1) :
    IsPos (val_main_v28 (F := Ideal) x0 x1) := by
  unfold val_main_v28 val_main_v27 val_main_v26 val_main_cst_5
  exact isPos_exp (isReal_divf (scores_real h0 h1)
    (isPos_broadcastInDim _ _ (isPos_constant _ _ (by norm_num) ofBits_tau)))

/-! ## The label row -/

/-- A one-bit word is 0 or 1. -/
theorem bit_zero_or_one (b : BitVec 1) : b = 0#1 ∨ b = 1#1 := by revert b; decide

/-- The conversion of a one-bit word to a float is 0 or 1. -/
theorem uitofp_bit (b : BitVec 1) :
    FloatOps.uitofp (F := Ideal) .f32 b = 0 ∨ FloatOps.uitofp (F := Ideal) .f32 b = 1 := by
  show (((b.toNat : ℝ)) : EReal) = 0 ∨ (((b.toNat : ℝ)) : EReal) = 1
  rcases bit_zero_or_one b with rfl | rfl
  · left; simp
  · right; simp

/-- Every label is 0 or 1. -/
theorem label_zero_one (x2 : (⟨S4096, .i32⟩ : BufTy).Contents (Elt Ideal)) (k : Fin 4096) :
    val_main_v22 (F := Ideal) x2 (ix1 k) = 0 ∨ val_main_v22 (F := Ideal) x2 (ix1 k) = 1 := by
  rw [val_main_v22_apply]
  exact uitofp_bit _

/-- The word every entry of pid is compared with is pid[0]. -/
theorem first_pid_apply (x2 : (⟨S4096, .i32⟩ : BufTy).Contents (Elt Ideal)) (i : S4096.Idx) :
    val_main_v20 (F := Ideal) x2 i = x2 (ix1 (0 : Fin 4096)) := by
  rw [val_main_v20_apply]
  unfold val_main_v19 val_main_v18
  show x2 _ = x2 _
  refine congrArg x2 (funext fun a => Fin.ext ?_)
  match a with
  | ⟨0, _⟩ =>
    show 0 + (_ : Fin 1).val = 0
    omega

/-- The first label compares pid[0] with itself: it is 1. -/
theorem label_first (x2 : (⟨S4096, .i32⟩ : BufTy).Contents (Elt Ideal)) :
    val_main_v22 (F := Ideal) x2 (ix1 (0 : Fin 4096)) = 1 := by
  rw [val_main_v22_apply, val_main_v21_apply, first_pid_apply]
  show (((IntOp.cmpi .eq (x2 (ix1 (0 : Fin 4096))) (x2 (ix1 (0 : Fin 4096)))).toNat : ℝ) : EReal) = 1
  have hb : IntOp.cmpi .eq (x2 (ix1 (0 : Fin 4096))) (x2 (ix1 (0 : Fin 4096))) = 1#1 := by
    simp [IntOp.cmpi]
  rw [hb]
  simp

/-! ## The arguments under the precondition -/

/-- Under the precondition both feature matrices hold real numbers. -/
theorem args_real [Cert.Pre_finite_inputs.Facts]
    {x0 x1 : (⟨S4096x512, .f32⟩ : BufTy).Contents (Elt Ideal)} {x2 : (⟨S4096, .i32⟩ : BufTy).Contents (Elt Ideal)}
    {x3 x4 : (⟨S4096, .f32⟩ : BufTy).Contents (Elt Ideal)} {x5 : (⟨S4096, .i32⟩ : BufTy).Contents (Elt Ideal)}
    (h : Cert.Pre_finite_inputs.fn (F := Ideal) x0 x1 x2 x3 x4 x5 = (fun _ => 1#1)) :
    IsReal x0 ∧ IsReal x1 := by
  have h' := congrFun h ValueIdx.ix0
  dsimp only [Cert.Pre_finite_inputs.fn, Cert.Pre_finite_inputs.fn_part1] at h'
  obtain ⟨h13, _⟩ := IntOp.andi_eq_one.1 h'
  obtain ⟨h8, _⟩ := IntOp.andi_eq_one.1 h13
  obtain ⟨h3, h7⟩ := IntOp.andi_eq_one.1 h8
  exact ⟨Cert.FiniteReal.real_of_all x0 _ _ _ h3, Cert.FiniteReal.real_of_all x1 _ _ _ h7⟩

end Cert.RealFacts

end
-- ==== Proof.RefBridge.lean ====
/-
  The reference's per-sample loss, in the arrangement of the other program.

  The reference sums the normalised weights times the scores and masks the negatives with \`1 − L\`; the other program
  divides two row sums and subtracts the positives' mass from the whole. On arrays of real numbers with positive
  exponentials and 0 / 1 labels whose first entry is 1 the two arrangements agree row by row (the row laws), and the
  precondition gives exactly that: finite features make the scores real and their exponentials positive reals, and
  the labels compare each identity with the first one. So under the precondition the reference's value at row \`i\` is
  \`Cert.Spec.perSample\` of the quotient \`posWeighted / posSum\` and of \`negSumSub\`.

  The exponentials are also restated with the division by the temperature as a multiplication by its reciprocal.
-/
import proofs.«137926_j21517786153378_2_alg».proof.Proof.RefRows
import proofs.«137926_j21517786153378_2_alg».proof.Proof.RowLaws
import proofs.«137926_j21517786153378_2_alg».proof.Proof.RealFacts

noncomputable section

namespace Cert.RefBridge

open Cert.ReferenceIdeal Cert.ReferenceIdeal.Gen Cert.ReferenceIdeal.Read Idealize.ShloMosaic Idealize.ShloMosaic.ValueIdx

/-- Under the precondition, the reference's per-sample loss at row \`i\` with the weighted mean as a quotient of two row
    sums and the negatives' mass as the whole minus the positives. -/
theorem perSample_kernelForm [Cert.Pre_finite_inputs.Facts]
    (x0 x1 : (⟨S4096x512, .f32⟩ : BufTy).Contents (Elt Ideal)) (x2 : (⟨S4096, .i32⟩ : BufTy).Contents (Elt Ideal))
    (x3 x4 : (⟨S4096, .f32⟩ : BufTy).Contents (Elt Ideal)) (x5 : (⟨S4096, .i32⟩ : BufTy).Contents (Elt Ideal))
    (hpre : Cert.Pre_finite_inputs.fn (F := Ideal) x0 x1 x2 x3 x4 x5 = fun _ => 1#1) (i : Fin 4096) :
    val_main_v72 (F := Ideal) x0 x1 x2 x3 (ix1 i)
      = Cert.Spec.perSample
          (Ideal.div
            (Cert.Spec.posWeighted (val_main_v17 (F := Ideal) x0 x1) (val_main_v28 (F := Ideal) x0 x1)
              (val_main_v22 (F := Ideal) x2) i)
            (Cert.Spec.posSum (val_main_v28 (F := Ideal) x0 x1) (val_main_v22 (F := Ideal) x2) i))
          (Cert.Spec.negSumSub (val_main_v28 (F := Ideal) x0 x1) (val_main_v22 (F := Ideal) x2) i)
          (val_main_v17 (F := Ideal) x0 x1 (ix2 i (0 : Fin 4096)))
          (val_main_v25 (F := Ideal) x2 ix0)
          (x3 (ix1 i)) := by
  obtain ⟨h0, h1⟩ := Cert.RealFacts.args_real hpre
  have hS := Cert.RealFacts.scores_real h0 h1
  have hE := Cert.RealFacts.expo_pos h0 h1
  rw [Cert.RefRows.perSample_apply,
    Cert.RowLaws.meanOfWeights_eq (val_main_v17 (F := Ideal) x0 x1) (val_main_v28 (F := Ideal) x0 x1)
      (val_main_v22 (F := Ideal) x2) i (fun k => hS (ix2 i k)) (fun k => hE (ix2 i k))
      (Cert.RealFacts.label_zero_one x2) (Cert.RealFacts.label_first x2),
    Cert.RowLaws.negSumMask_eq (val_main_v28 (F := Ideal) x0 x1) (val_main_v22 (F := Ideal) x2) i
      (fun k => (hE (ix2 i k)).imp fun _ hr => hr.2) (Cert.RealFacts.label_zero_one x2)]

/-- \`E(j) = exp(S(j) · (1/τ))\`, the reciprocal of the temperature written as the real number it is. -/
theorem expo_kernelForm (x0 x1 : (⟨S4096x512, .f32⟩ : BufTy).Contents (Elt Ideal)) (j : S4096x4096.Idx) :
    val_main_v28 (F := Ideal) x0 x1 j
      = Ideal.exp (val_main_v17 (F := Ideal) x0 x1 j * ((268435456 / 5368709 : ℝ) : EReal)) := by
  rw [Cert.RefRows.expo_apply, Cert.RowLaws.mul_invTau]

end Cert.RefBridge

end
-- ==== Proof.TileEntries.lean ====
/-
  The tile a grid point computes, entry by entry, is the corresponding entry of the reference's whole arrays.

  Point \`t\` of the 4 × 4 grid holds rows \`1024·(t / 4) …\` of the text matrix, rows \`1024·(t % 4) …\` of the image matrix
  and labels \`1024·(t % 4) …\` of the label row. Entry \`(r, cc)\` of the tile of scores it computes is the contraction
  of text row \`rowOf t r\` with image row \`colOf t cc\`, which is the reference's score at \`(rowOf t r, colOf t cc)\`; the
  tile of exponentials is the exponential of that score times the reciprocal of the temperature, which is the
  reference's exponential at the same place; and the masked tile multiplies it by the label of column \`colOf t cc\`.
-/
import proofs.«137926_j21517786153378_2_alg».proof.Proof.TileValues
import proofs.«137926_j21517786153378_2_alg».proof.Proof.Blocks
import proofs.«137926_j21517786153378_2_alg».proof.Proof.EntryArrays
import proofs.«137926_j21517786153378_2_alg».proof.Proof.ScoreEntries
import proofs.«137926_j21517786153378_2_alg».proof.Proof.RefBridge

noncomputable section

namespace Cert.KernelIdeal.TileEntries

open Cert.KernelIdeal Cert.KernelIdeal.Gen Cert.KernelIdeal.GenP Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The row of the whole arrays that row \`r\` of point \`t\`'s tile is: the row tile is \`t / 4\`. -/
def rowOf (t : Fin cfg0.N) (r : Fin 1024) : Fin 4096 :=
  ⟨1024 * (t.val / 4) + r.val, by have := Blocks.point_lt t; have := r.isLt; omega⟩

/-- The column of the whole arrays that column \`cc\` of point \`t\`'s tile is: the column tile is \`t % 4\`. -/
def colOf (t : Fin cfg0.N) (cc : Fin 1024) : Fin 4096 :=
  ⟨1024 * (t.val % 4) + cc.val, by have := cc.isLt; omega⟩

/-- The tile of scores: entry \`(r, cc)\` is the reference's score at \`(rowOf t r, colOf t cc)\`. -/
theorem score_entry (t : Fin cfg0.N) (r cc : Fin 1024) :
    k0_pay2 (F := Ideal) (iblk m c 0 t) (iblk m c 1 t) (ix2 r cc)
      = Cert.ReferenceIdeal.Read.val_main_v17 (F := Ideal) (m ((c.tc : Thread nD τ).loc main_arg0))
          (m ((c.tc : Thread nD τ).loc main_arg1)) (ix2 (rowOf t r) (colOf t cc)) := by
  refine (Tile.score_apply (iblk m c 0 t) (iblk m c 1 t) r cc).trans ?_
  rw [Cert.ScoreEntries.scores_entry]
  refine Finset.sum_congr rfl fun k _ => ?_
  rw [Blocks.text_block m c t r k, Blocks.image_block m c t cc k, Entry.text_rows m c, Entry.image_rows m c]
  rfl

/-- The tile of exponentials: entry \`(r, cc)\` is the reference's exponential at \`(rowOf t r, colOf t cc)\`. -/
theorem expo_entry (t : Fin cfg0.N) (r cc : Fin 1024) :
    k0_pay3 (F := Ideal) (iblk m c 0 t) (iblk m c 1 t) (ix2 r cc)
      = Cert.ReferenceIdeal.Read.val_main_v28 (F := Ideal) (m ((c.tc : Thread nD τ).loc main_arg0))
          (m ((c.tc : Thread nD τ).loc main_arg1)) (ix2 (rowOf t r) (colOf t cc)) := by
  refine (Tile.expo_apply (iblk m c 0 t) (iblk m c 1 t) r cc).trans ?_
  rw [score_entry m c t r cc, Cert.RefBridge.expo_kernelForm]
  rfl

/-- The masked tile: the exponential times the label of the column. -/
theorem pos_entry (t : Fin cfg0.N) (r cc : Fin 1024) :
    k0_pay4 (F := Ideal) (iblk m c 0 t) (iblk m c 1 t) (iblk m c 2 t) (ix2 r cc)
      = Cert.ReferenceIdeal.Read.val_main_v28 (F := Ideal) (m ((c.tc : Thread nD τ).loc main_arg0))
          (m ((c.tc : Thread nD τ).loc main_arg1)) (ix2 (rowOf t r) (colOf t cc))
        * Cert.ReferenceIdeal.Read.val_main_v22 (F := Ideal) (m ((c.tc : Thread nD τ).loc main_arg2)) (ix1 (colOf t cc)) := by
  refine (Tile.pos_apply (iblk m c 0 t) (iblk m c 1 t) (iblk m c 2 t) r cc).trans ?_
  rw [expo_entry m c t r cc, Blocks.label_block m c t cc, Entry.label_row m c, Cert.ScoreEntries.labels_row]
  rfl

end Cert.KernelIdeal.TileEntries

end
-- ==== Proof.LibBlockSum.lean ====
/-
  Sums taken block by block, and a running accumulator over the blocks.

  Every statement holds in any commutative additive monoid `M`, in particular in the extended reals, and none asks that
  a term be finite: only associativity and commutativity of `+` and `0 + a = a` are used.

  • `sum_blocks`: a sum over `T * B` consecutive indices is the sum, over the `T` blocks, of each block's sum over its `B`
    entries, entry `p` of block `t` being index `t * B + p`. `sum_blocks_of_eq` says the same of an index range of any
    length `N` with `N = T * B`.
  • `acc_eq`: an accumulator that is `z + (z + S 0)` after step `0` and grows by `z + S (n + 1)` at step `n + 1`, where
    `z = 0`, is `z + ∑ t < n + 1, S t` after step `n`. `acc_eq_of_lt` asks for the recurrence below a bound only;
    `acc_fin_eq` and `acc_fin_total` are the forms for steps indexed by `Fin T`.
  • `acc_blocks_total`: the two together: an accumulator of block sums ends at `z` plus the sum over all indices.
-/
import Mathlib.Data.EReal.Basic
import Mathlib.Algebra.BigOperators.Fin

open scoped BigOperators

namespace Cert.LibBlockSum

variable {M : Type*} [AddCommMonoid M]

/-- Entry `p` of block `t`, of `T` blocks of `B` entries, is an index below `T * B`. -/
theorem blk_lt {T B : ℕ} (t : Fin T) (p : Fin B) : t.val * B + p.val < T * B := by
  have h1 : (t.val + 1) * B ≤ T * B := Nat.mul_le_mul_right B t.isLt
  have h2 : t.val * B + p.val < (t.val + 1) * B := by
    rw [Nat.add_mul, Nat.one_mul]; exact Nat.add_lt_add_left p.isLt _
  exact lt_of_lt_of_le h2 h1

/-- A sum over `T * B` indices, block by block: `∑ r, f r = ∑ t, ∑ p, f (t * B + p)`. -/
theorem sum_blocks (T B : ℕ) (f : Fin (T * B) → M) :
    ∑ r : Fin (T * B), f r = ∑ t : Fin T, ∑ p : Fin B, f ⟨t.val * B + p.val, blk_lt t p⟩ := by
  rw [← (finProdFinEquiv (m := T) (n := B)).sum_comp f, Fintype.sum_prod_type]
  refine Finset.sum_congr rfl fun t _ => Finset.sum_congr rfl fun p _ => ?_
  refine congrArg f (Fin.ext ?_)
  rw [finProdFinEquiv_apply_val]
  show p.val + B * t.val = t.val * B + p.val
  rw [Nat.mul_comm, Nat.add_comm]

/-- The same for an index range of length `N = T * B`. -/
theorem sum_blocks_of_eq {N : ℕ} (T B : ℕ) (hN : N = T * B) (f : Fin N → M) :
    ∑ r : Fin N, f r
      = ∑ t : Fin T, ∑ p : Fin B, f ⟨t.val * B + p.val, (blk_lt t p).trans_eq hN.symm⟩ := by
  subst hN
  exact sum_blocks T B f

/-- The running accumulator, the recurrence asked for below a bound `T` only. -/
theorem acc_eq_of_lt (T : ℕ) (z : M) (hz : z = 0) (S acc : ℕ → M)
    (h0 : acc 0 = z + (z + S 0))
    (hs : ∀ n, n + 1 < T → acc (n + 1) = acc n + (z + S (n + 1))) :
    ∀ n, n < T → acc n = z + ∑ t ∈ Finset.range (n + 1), S t := by
  subst hz
  intro n
  induction n with
  | zero =>
    intro _
    rw [h0]
    simp only [zero_add, Finset.sum_range_one]
  | succ n ih =>
    intro hn
    rw [hs n hn, ih (Nat.lt_of_succ_lt hn)]
    simp only [zero_add]
    exact (Finset.sum_range_succ S (n + 1)).symm

/-- The running accumulator: from `z + (z + S 0)`, adding `z + S (n + 1)` at step `n + 1`, with `z = 0`. -/
theorem acc_eq (z : M) (hz : z = 0) (S acc : ℕ → M)
    (h0 : acc 0 = z + (z + S 0))
    (hs : ∀ n, acc (n + 1) = acc n + (z + S (n + 1))) (n : ℕ) :
    acc n = z + ∑ t ∈ Finset.range (n + 1), S t :=
  acc_eq_of_lt (n + 1) z hz S acc h0 (fun k _ => hs k) n (Nat.lt_succ_self n)

/-- The running accumulator with steps indexed by `Fin T`: after step `n` it is `z` plus the first `n + 1` terms. -/
theorem acc_fin_eq {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩)) :
    ∀ (n : ℕ) (h : n < T),
      acc ⟨n, h⟩ = z + ∑ t : Fin (n + 1), S ⟨t.val, Nat.lt_of_lt_of_le t.isLt (Nat.succ_le_of_lt h)⟩ := by
  subst hz
  intro n
  induction n with
  | zero =>
    intro h
    rw [h0 h]
    simp only [zero_add, Fin.sum_univ_castSucc, Fin.sum_univ_zero]
    rfl
  | succ n ih =>
    intro h
    rw [hs n h, ih (Nat.lt_of_succ_lt h), Fin.sum_univ_castSucc (n := n + 1)]
    simp only [zero_add]
    rfl

/-- The running accumulator over all `T = n + 1` steps: after the last step it is `z` plus the sum of all terms. -/
theorem acc_fin_total {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ t : Fin T, S t := by
  subst hT
  exact acc_fin_eq z hz S acc h0 hs n (Nat.lt_succ_self n)

/-- An accumulator of block sums: if step `t` adds the sum of block `t` of `f`, then after the last of the `T = n + 1`
    steps the accumulator is `z` plus the sum of `f` over all `N = T * B` indices. -/
theorem acc_blocks_total {N : ℕ} (T B : ℕ) (hN : N = T * B) (z : M) (hz : z = 0) (f : Fin N → M) (S acc : Fin T → M)
    (hS : ∀ t : Fin T, S t = ∑ p : Fin B, f ⟨t.val * B + p.val, (blk_lt t p).trans_eq hN.symm⟩)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ r : Fin N, f r := by
  rw [acc_fin_total z hz S acc h0 hs n hT, sum_blocks_of_eq T B hN f]
  exact congrArg (z + ·) (Finset.sum_congr rfl fun t _ => hS t)

/-- The shape of use: 50000 rows in 25 blocks of 2000, in the extended reals. -/
example (f : Fin 50000 → EReal) :
    ∑ r : Fin 50000, f r = ∑ t : Fin 25, ∑ p : Fin 2000, f ⟨t.val * 2000 + p.val, (blk_lt t p).trans_eq (by norm_num)⟩ :=
  sum_blocks_of_eq 25 2000 (by norm_num) f

end Cert.LibBlockSum
-- ==== Proof.FourTiles.lean ====
/-
  A sum over 4096 indices as the sum of its four tiles of 1024.

  If g q cc is index 1024·q + cc, the sums of f over the four tiles g 0, g 1, g 2, g 3, added left to right, are the
  sum of f over all 4096 indices: the whole sum is taken block by block (four blocks of 1024 consecutive indices),
  and the four block sums are written out. Only associativity and commutativity of + are used, so no term need be
  finite.
-/
import proofs.«137926_j21517786153378_2_alg».proof.Proof.LibBlockSum

open scoped BigOperators

namespace Cert.FourTiles

/-- The four tile sums add up to the whole sum. -/
theorem four_tiles (f : Fin 4096 → EReal) (g : Fin 4 → Fin 1024 → Fin 4096)
    (hg : ∀ q cc, (g q cc).val = 1024 * q.val + cc.val) :
    (∑ cc : Fin 1024, f (g 0 cc)) + (∑ cc : Fin 1024, f (g 1 cc)) + (∑ cc : Fin 1024, f (g 2 cc))
      + (∑ cc : Fin 1024, f (g 3 cc)) = ∑ b : Fin 4096, f b := by
  have key : ∀ q : Fin 4, ∑ cc : Fin 1024, f (g q cc)
      = ∑ p : Fin 1024, f ⟨q.val * 1024 + p.val, (Cert.LibBlockSum.blk_lt q p).trans_eq rfl⟩ := fun q =>
    Finset.sum_congr rfl fun cc _ => congrArg f (Fin.ext (by
      rw [hg]
      show 1024 * q.val + cc.val = q.val * 1024 + cc.val
      omega))
  rw [Cert.LibBlockSum.sum_blocks_of_eq 4 1024 rfl f, Fin.sum_univ_four, key 0, key 1, key 2, key 3]

end Cert.FourTiles
-- ==== Proof.Outputs.lean ====
/-
  The four arrays the region leaves, each as ONE function of the reference's whole arrays.

  Write S for the score matrix, E for the exponentials of the scores over the temperature and L for the label row (the
  reference's own stages of the argument arrays). Every point writes its score tile back, and the tiles fill the score
  array: it ends at S. A running column is written back once per row tile, after the fourth column tile; by then block i
  holds, at row r, zero plus the sums of the four tiles' rows — one sum over all 4096 columns, at row 1024·i + r:
  the mass of the positives, the mass of the negatives (as whole minus positives) and the positives' weighted scores.
-/
import proofs.«137926_j21517786153378_2_alg».proof.Proof.Running
import proofs.«137926_j21517786153378_2_alg».proof.Proof.Blocks
import proofs.«137926_j21517786153378_2_alg».proof.Proof.Covers
import proofs.«137926_j21517786153378_2_alg».proof.Proof.TileEntries
import proofs.«137926_j21517786153378_2_alg».proof.Proof.FourTiles
import proofs.«137926_j21517786153378_2_alg».proof.Proof.Spec

set_option maxRecDepth 16384

noncomputable section

namespace Cert.KernelIdeal.Outputs

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open Cert.KernelIdeal.Running Cert.KernelIdeal.TileEntries
open scoped BigOperators

variable [hFacts : Cert.KernelIdeal.Facts]
variable (m : (ℓ : Loc nD τ sig) → Buf (Elt Ideal) ℓ) (c : Dev nD)

/-- The reference's score matrix, exponentials and label row of the kernel's argument arrays. -/
abbrev Sc : Cert.Spec.Mat :=
  Cert.ReferenceIdeal.Read.val_main_v17 (F := Ideal) (m ((c.tc : Thread nD τ).loc main_arg0)) (m ((c.tc : Thread nD τ).loc main_arg1))
abbrev Ex : Cert.Spec.Mat :=
  Cert.ReferenceIdeal.Read.val_main_v28 (F := Ideal) (m ((c.tc : Thread nD τ).loc main_arg0)) (m ((c.tc : Thread nD τ).loc main_arg1))
abbrev Lb : Cert.Spec.Row :=
  Cert.ReferenceIdeal.Read.val_main_v22 (F := Ideal) (m ((c.tc : Thread nD τ).loc main_arg2))

/-- Row r of row tile i, in the whole array. -/
def gRow (i : Fin 4) (r : Fin 1024) : Fin 4096 := ⟨1024 * i.val + r.val, by have := i.isLt; have := r.isLt; omega⟩

theorem rowOf_pt (i q : Fin 4) (r : Fin 1024) : rowOf (pt i q) r = gRow i r :=
  Fin.ext (by show 1024 * ((4 * i.val + q.val) / 4) + r.val = 1024 * i.val + r.val; have := q.isLt; omega)

theorem colOf_pt (i q : Fin 4) (cc : Fin 1024) : (colOf (pt i q) cc).val = 1024 * q.val + cc.val := by
  show 1024 * ((4 * i.val + q.val) % 4) + cc.val = 1024 * q.val + cc.val
  have := q.isLt
  omega

/-- Four tiles' row sums are one row sum over the whole array's columns. -/
theorem tiles_to_row (i : Fin 4) (r : Fin 1024) (f : Fin 4096 → Fin 4096 → EReal) (T : Fin cfg0.N → EReal)
    (hT : ∀ q : Fin 4, T (pt i q) = ∑ cc : Fin 1024, f (rowOf (pt i q) r) (colOf (pt i q) cc)) :
    T (pt i 0) + T (pt i 1) + T (pt i 2) + T (pt i 3) = ∑ b : Fin 4096, f (gRow i r) b := by
  rw [hT 0, hT 1, hT 2, hT 3]
  simp only [rowOf_pt]
  exact Cert.FourTiles.four_tiles (fun b => f (gRow i r) b) (fun q cc => colOf (pt i q) cc) (fun q cc => colOf_pt i q cc)

/-! ## The running columns after a row tile's last point -/

theorem pos_row (i : Fin 4) (r : Fin 1024) (u : Fin 1) :
    (outsAt0 (F := Ideal) m c (pt i 3).val (pt i 3).isLt).2.1 (ix2 r u) = Cert.Spec.posSum (Ex m c) (Lb m c) (gRow i r) := by
  rw [pos_last m c i r u]
  refine congrArg (z + ·) ?_
  exact tiles_to_row i r (fun a b => Ex m c (ix2 a b) * Lb m c (ix1 b)) (fun t => posTile m c t r)
    (fun q => Finset.sum_congr rfl fun cc _ => pos_entry m c (pt i q) r cc)

theorem neg_row (i : Fin 4) (r : Fin 1024) (u : Fin 1) :
    (outsAt0 (F := Ideal) m c (pt i 3).val (pt i 3).isLt).2.2.1 (ix2 r u) = Cert.Spec.negSumSub (Ex m c) (Lb m c) (gRow i r) := by
  rw [neg_last m c i r u]
  refine congrArg (z + ·) ?_
  exact tiles_to_row i r (fun a b => Ex m c (ix2 a b) - Ex m c (ix2 a b) * Lb m c (ix1 b)) (fun t => negTile m c t r)
    (fun q => Finset.sum_congr rfl fun cc _ => by rw [expo_entry m c (pt i q) r cc, pos_entry m c (pt i q) r cc])

theorem weighted_row (i : Fin 4) (r : Fin 1024) (u : Fin 1) :
    (outsAt0 (F := Ideal) m c (pt i 3).val (pt i 3).isLt).2.2.2 (ix2 r u)
      = Cert.Spec.posWeighted (Sc m c) (Ex m c) (Lb m c) (gRow i r) := by
  rw [weighted_last m c i r u]
  refine congrArg (z + ·) ?_
  exact tiles_to_row i r (fun a b => Ex m c (ix2 a b) * Lb m c (ix1 b) * Sc m c (ix2 a b)) (fun t => weightedTile m c t r)
    (fun q => Finset.sum_congr rfl fun cc _ => by rw [pos_entry m c (pt i q) r cc, score_entry m c (pt i q) r cc])

/-! ## What each array ends holding -/

/-- The three columns as functions of the array index. -/
def posCol : S4096x1.Idx → EReal := fun j => Cert.Spec.posSum (Ex m c) (Lb m c) ⟨(j 0).val, idx2_lt0 j⟩
def negCol : S4096x1.Idx → EReal := fun j => Cert.Spec.negSumSub (Ex m c) (Lb m c) ⟨(j 0).val, idx2_lt0 j⟩
def weightedCol : S4096x1.Idx → EReal := fun j => Cert.Spec.posWeighted (Sc m c) (Ex m c) (Lb m c) ⟨(j 0).val, idx2_lt0 j⟩

/-- A point that writes a running column back is the fourth column tile of its row tile. -/
theorem last_of_rem (t : Fin cfg0.N) (h3 : t.val % 4 = 3) : ∃ i : Fin 4, t = pt i 3 :=
  ⟨⟨t.val / 4, by have := Blocks.point_lt t; omega⟩, Fin.ext (by show t.val = 4 * (t.val / 4) + 3; omega)⟩

theorem scores_flushed (t : Fin cfg0.N) (hf : (cfg0.win 3).flush t = true) :
    (dats m 0 c).flushed 3 t = ((cfg0.win 3).blk t).view.read (Elt Ideal) (Sc m c) := by
  show (cfg0.win 3).cut (grid0.coords t) ((dats m 0 c).after 3 t) = _
  rw [after0_3, scores_at m c t]
  refine funext fun (j : S1024x1024.Idx) => ?_
  obtain ⟨r, cc, rfl⟩ : ∃ (r cc : Fin 1024), j = ix2 r cc := ⟨j 0, j 1, eq_ix2 j⟩
  refine (score_entry m c t r cc).trans ?_
  exact (Blocks.score_block (F := Ideal) (Sc m c) t r cc).symm

theorem pos_flushed (t : Fin cfg0.N) (hf : (cfg0.win 4).flush t = true) :
    (dats m 0 c).flushed 4 t = ((cfg0.win 4).blk t).view.read (Elt Ideal) (posCol m c) := by
  obtain ⟨i, rfl⟩ := last_of_rem t ((flush0_4 t).mp hf)
  show (cfg0.win 4).cut (grid0.coords (pt i 3)) ((dats m 0 c).after 4 (pt i 3)) = _
  rw [after0_4]
  refine funext fun (j : S1024x1.Idx) => ?_
  obtain ⟨r, u, rfl⟩ : ∃ (r : Fin 1024) (u : Fin 1), j = ix2 r u := ⟨j 0, j 1, eq_ix2 j⟩
  refine (pos_row m c i r u).trans ?_
  refine Eq.trans ?_ (Blocks.col4_block (F := Ideal) (posCol m c) (pt i 3) r u).symm
  exact congrArg (Cert.Spec.posSum (Ex m c) (Lb m c)) (rowOf_pt i 3 r).symm

theorem neg_flushed (t : Fin cfg0.N) (hf : (cfg0.win 5).flush t = true) :
    (dats m 0 c).flushed 5 t = ((cfg0.win 5).blk t).view.read (Elt Ideal) (negCol m c) := by
  obtain ⟨i, rfl⟩ := last_of_rem t ((flush0_5 t).mp hf)
  show (cfg0.win 5).cut (grid0.coords (pt i 3)) ((dats m 0 c).after 5 (pt i 3)) = _
  rw [after0_5]
  refine funext fun (j : S1024x1.Idx) => ?_
  obtain ⟨r, u, rfl⟩ : ∃ (r : Fin 1024) (u : Fin 1), j = ix2 r u := ⟨j 0, j 1, eq_ix2 j⟩
  refine (neg_row m c i r u).trans ?_
  refine Eq.trans ?_ (Blocks.col5_block (F := Ideal) (negCol m c) (pt i 3) r u).symm
  exact congrArg (Cert.Spec.negSumSub (Ex m c) (Lb m c)) (rowOf_pt i 3 r).symm

theorem weighted_flushed (t : Fin cfg0.N) (hf : (cfg0.win 6).flush t = true) :
    (dats m 0 c).flushed 6 t = ((cfg0.win 6).blk t).view.read (Elt Ideal) (weightedCol m c) := by
  obtain ⟨i, rfl⟩ := last_of_rem t ((flush0_6 t).mp hf)
  show (cfg0.win 6).cut (grid0.coords (pt i 3)) ((dats m 0 c).after 6 (pt i 3)) = _
  rw [after0_6]
  refine funext fun (j : S1024x1.Idx) => ?_
  obtain ⟨r, u, rfl⟩ : ∃ (r : Fin 1024) (u : Fin 1), j = ix2 r u := ⟨j 0, j 1, eq_ix2 j⟩
  refine (weighted_row m c i r u).trans ?_
  refine Eq.trans ?_ (Blocks.col6_block (F := Ideal) (weightedCol m c) (pt i 3) r u).symm
  exact congrArg (Cert.Spec.posWeighted (Sc m c) (Ex m c) (Lb m c)) (rowOf_pt i 3 r).symm

/-- The score array ends at the reference's score matrix. -/
theorem scores_final : (dats m 0 c).arrAt 3 cfg0.N = Sc m c :=
  (dats m 0 c).arrAt_eq_of_cover 3 (Sc m c) (scores_flushed m c) Covers.cover_scores

/-- The three columns end at the row quantities of the specification. -/
theorem pos_final : (dats m 0 c).arrAt 4 cfg0.N = posCol m c :=
  (dats m 0 c).arrAt_eq_of_cover 4 (posCol m c) (pos_flushed m c) Covers.cover_col4
theorem neg_final : (dats m 0 c).arrAt 5 cfg0.N = negCol m c :=
  (dats m 0 c).arrAt_eq_of_cover 5 (negCol m c) (neg_flushed m c) Covers.cover_col5
theorem weighted_final : (dats m 0 c).arrAt 6 cfg0.N = weightedCol m c :=
  (dats m 0 c).arrAt_eq_of_cover 6 (weightedCol m c) (weighted_flushed m c) Covers.cover_col6

end Cert.KernelIdeal.Outputs

end
-- ==== Proof.TailRows.lean ====
/-
  The per-row loss as one pure term of the four row-sum outputs and the inputs that enter after them.

  The term composes, in order: the quotient of the weighted sum by the positives' mass, negated; the temperature times
  the logarithm of the clamped negatives' mass; the margin (a [4096] array made a [4096, 1] column); the maximum with
  zero — and the same again for the first column of the score matrix (a [0:4096, 0:1] slice), whose negatives' mass is
  the exponential of the score over the temperature times the count of negatives. The two maxima are added and the
  [4096, 1] column is read back as a [4096] array.

  Read at a row `i`, every layout operation picks one entry (the column at `(i, 0)`, the array at `i`, the scalar at
  its one index) and every arithmetic operation acts on that entry alone, so the term is the per-row loss expression
  of the shared vocabulary at the entries of row `i`.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«137926_j21517786153378_2_alg».proof.KernelIdeal
import proofs.«137926_j21517786153378_2_alg».proof.Proof.Spec
import proofs.«137926_j21517786153378_2_alg».proof.Proof.LibKeepdimsLayout

noncomputable section

namespace Cert.KernelIdeal.Tail

open Cert.KernelIdeal Idealize.ShloMosaic Idealize.ShloMosaic.ValueIdx
open Cert.KernelIdeal.Facts₀ Cert.KernelIdeal.Facts

variable [hFacts : Cert.KernelIdeal.Facts]

/-- The per-row loss column, from the positives' mass `w1`, the negatives' mass `w2`, the weighted sum `w3` (each a
    [4096, 1] column), the score matrix `sc`, the count of negatives `nn` (a scalar) and the margins `x3`. -/
def perSampleTail (w1 w2 w3 : FVec Ideal S4096x1 .f32) (sc : FVec Ideal S4096x4096 .f32) (nn : FVec Ideal S_ .f32)
    (x3 : FVec Ideal S4096 .f32) : FVec Ideal S4096 .f32 :=
  shapeCast S4096 (addf (F := Ideal)
    (maximumf (F := Ideal) (addf (F := Ideal) (addf (F := Ideal) (Host.negf (F := Ideal) (Host.divf (F := Ideal) w3 w1)) (mulf (F := Ideal) (broadcastInDim S4096x1 ![] bcast_S_S4096x1 (constant (F := Ideal) S_ .f32 0x3CA3D70A#32)) (Host.log (F := Ideal) (minimumf (F := Ideal) w2 (broadcastInDim S4096x1 ![] bcast_S_S4096x1 (constant (F := Ideal) S_ .f32 0x7B4097CE#32)))))) (shapeCast S4096x1 x3 shapeCasts_S4096_S4096x1)) (broadcastInDim S4096x1 ![] bcast_S_S4096x1 (constant (F := Ideal) S_ .f32 0x00000000#32)))
    (maximumf (F := Ideal) (addf (F := Ideal) (addf (F := Ideal) (Host.negf (F := Ideal) (extractStridedSlice S4096x1 ![0, 0] sc slices_S4096x4096_S4096x1_0_0)) (mulf (F := Ideal) (broadcastInDim S4096x1 ![] bcast_S_S4096x1 (constant (F := Ideal) S_ .f32 0x3CA3D70A#32)) (Host.log (F := Ideal) (minimumf (F := Ideal) (mulf (F := Ideal) (Host.exp (F := Ideal) (Host.divf (F := Ideal) (extractStridedSlice S4096x1 ![0, 0] sc slices_S4096x4096_S4096x1_0_0) (broadcastInDim S4096x1 ![] bcast_S_S4096x1 (constant (F := Ideal) S_ .f32 0x3CA3D70A#32)))) (broadcastInDim S4096x1 ![] bcast_S_S4096x1 nn)) (broadcastInDim S4096x1 ![] bcast_S_S4096x1 (constant (F := Ideal) S_ .f32 0x7B4097CE#32)))))) (shapeCast S4096x1 x3 shapeCasts_S4096_S4096x1)) (broadcastInDim S4096x1 ![] bcast_S_S4096x1 (constant (F := Ideal) S_ .f32 0x00000000#32))))
    shapeCasts_S4096x1_S4096

/-- A [4096, 1] column read back as a [4096] array: entry `i` is the column's entry `(i, 0)`. -/
theorem shapeCast_col_apply (v : FVec Ideal S4096x1 .f32) (i : Fin 4096) :
    shapeCast S4096 v shapeCasts_S4096x1_S4096 (ix1 i) = v (ix2 i (0 : Fin 1)) :=
  shapeCast_apply v shapeCasts_S4096x1_S4096 _ _ (by
    rw [Shape.rowMajor_val_two, Shape.rowMajor_val_one]
    show i.val * 1 + 0 = i.val
    rw [Nat.mul_one, Nat.add_zero])

/-- The margins made a column: entry `(i, 0)` is margin `i`. -/
theorem margin_col_apply (x3 : FVec Ideal S4096 .f32) (i : Fin 4096) :
    shapeCast S4096x1 x3 shapeCasts_S4096_S4096x1 (ix2 i (0 : Fin 1)) = x3 (ix1 i) :=
  Cert.KernelIdeal.Val.shapeCast_a_a1_apply x3 shapeCasts_S4096_S4096x1 i 0

/-- The slice [0:4096, 0:1] of the score matrix: entry `(i, 0)` is the score `(i, 0)`. -/
theorem firstCol_apply (sc : FVec Ideal S4096x4096 .f32) (i : Fin 4096) :
    extractStridedSlice S4096x1 ![0, 0] sc slices_S4096x4096_S4096x1_0_0 (ix2 i (0 : Fin 1))
      = sc (ix2 i (0 : Fin 4096)) :=
  extractStridedSlice_apply _ sc slices_S4096x4096_S4096x1_0_0 _ _ fun a =>
    match a with
    | ⟨0, _⟩ => (Nat.zero_add _).symm
    | ⟨1, _⟩ => rfl

/-- A scalar broadcast to a column reads the scalar at every entry. -/
theorem scalar_col_apply (x : FVec Ideal S_ .f32) (j : S4096x1.Idx) :
    broadcastInDim S4096x1 ![] bcast_S_S4096x1 x j = x ix0 := by
  unfold broadcastInDim
  exact congrArg x (funext fun a => a.elim0)

/-- The term read at row `i` is the per-row loss at the entries of that row. -/
theorem perSampleTail_apply (w1 w2 w3 : FVec Ideal S4096x1 .f32) (sc : FVec Ideal S4096x4096 .f32)
    (nn : FVec Ideal S_ .f32) (x3 : FVec Ideal S4096 .f32) (i : Fin 4096) :
    perSampleTail w1 w2 w3 sc nn x3 (ix1 i)
      = Cert.Spec.perSample (Ideal.div (w3 (ix2 i (0 : Fin 1))) (w1 (ix2 i (0 : Fin 1)))) (w2 (ix2 i (0 : Fin 1)))
          (sc (ix2 i (0 : Fin 4096))) (nn ix0) (x3 (ix1 i)) := by
  unfold perSampleTail
  rw [shapeCast_col_apply]
  simp only [addf, mulf, maximumf, minimumf, Host.negf, Host.divf, Host.log, Host.exp, margin_col_apply,
    firstCol_apply]
  rw [scalar_col_apply, scalar_col_apply, scalar_col_apply, scalar_col_apply]
  rfl

end Cert.KernelIdeal.Tail

end
-- ==== Proof.LibAfterAppend.lean ====
/-
  The host's buffer contents after several stretches of operations.

  `StableHlo.after ops V` folds a list of host operations over the buffer contents `V`. A program whose operations after
  a region come in several stretches (a called function is a stretch of its own) states its tail over the flattened list of
  the stretches; the fold over an append is the fold over the second list from the fold over the first, so the stretches can
  be peeled one at a time and each kept as the literal list it is. General in the topology, the signature and the values.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two stretches of operations are those after the second, from those after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Two stretches, flattened. -/
theorem after_flatten2 (a b : List (HloOp τ sig Val)) (V : Valuation τ sig Val) :
    after (List.flatten [a, b]) V = after b (after a V) := by
  show after (a ++ (b ++ [])) V = _
  rw [after_append, List.append_nil]

/-- Three stretches, flattened. -/
theorem after_flatten3 (a b c : List (HloOp τ sig Val)) (V : Valuation τ sig Val) :
    after (List.flatten [a, b, c]) V = after c (after b (after a V)) := by
  show after (a ++ (b ++ (c ++ []))) V = _
  rw [after_append, after_append, List.append_nil]

/-- Four stretches, flattened. -/
theorem after_flatten4 (a b c d : List (HloOp τ sig Val)) (V : Valuation τ sig Val) :
    after (List.flatten [a, b, c, d]) V = after d (after c (after b (after a V))) := by
  show after (a ++ (b ++ (c ++ (d ++ [])))) V = _
  rw [after_append, after_append, after_append, List.append_nil]

end Cert.LibAfterAppend

end
-- ==== Proof.TailRead.lean ====
/-
  What the host lines after the region leave in three buffers: the per-row loss (a column read back as an array), the
  per-row weights, and the weighted mean of the two.

  The contents after those lines are a fold of the operations over the contents at the end of the region, where each
  window's array holds what the region left in it and every other buffer what it held when the region was entered.
  Each of the three buffers is then a pure term of those contents:
    * the per-row loss is `perSampleTail` of the four arrays the region wrote, the count of negatives and the margins;
    * the weights are the reference's weights term at the two arguments they are computed from (the same operations in
      the same order, so the two terms are the same term);
    * the loss is `lossOf` of these two: the sum of loss times weight over the sum of the weights, each sum from zero.
  The reference's loss has the same form over its own per-row loss and weights (`ref_loss`).
-/
import proofs.«137926_j21517786153378_2_alg».proof.Proof.GenP.KernelIdeal.Frame
import proofs.«137926_j21517786153378_2_alg».proof.Proof.Gen.ReferenceIdeal.Read
import proofs.«137926_j21517786153378_2_alg».proof.Proof.TailRows
import proofs.«137926_j21517786153378_2_alg».proof.Proof.LibAfterAppend
import Idealize.ShloMosaic.Lib.StableHlo.Run
import Idealize.ShloMosaic.Lib.Pipeline.FrameSuffix

noncomputable section

namespace Cert.KernelIdeal.TailRead

open Cert.KernelIdeal Cert.KernelIdeal.Gen Cert.KernelIdeal.GenP Idealize.ShloMosaic Idealize.ShloMosaic.TcCoe Idealize.SL.Sem
open Idealize.ShloMosaic.StableHlo

variable (m : (ℓ : Loc nD τ sig) → Buf (Elt Ideal) ℓ) (c : Dev nD)

/-- The contents of a TensorCore buffer that no window stages, once the lines after the region have run. -/
abbrev T (b : Ref sig .tc) : Buf (Elt Ideal) ((c.tc : Thread nD τ).loc b) :=
  Pipeline.afterTail₀ cfgs (dats m) 0 (V0 m) [hostOps1, hostOps1_1, hostOps1_2, hostOps1_3, hostOps1_4] c b

/-- The weighted mean of the per-row losses: the sum of loss times weight over the sum of the weights, each sum from zero. -/
def lossOf (p w : FVec Ideal S4096 .f32) : FVec Ideal S_ .f32 :=
  Host.divf (F := Ideal)
    (Host.reduceAdd (F := Ideal) (mulf (F := Ideal) p w) (constant (F := Ideal) S_ .f32 0x00000000#32)
      Facts₀.reducesTo_S4096_S_d0 Facts₀.h_S_)
    (Host.reduceAdd (F := Ideal) w (constant (F := Ideal) S_ .f32 0x00000000#32) Facts₀.reducesTo_S4096_S_d0 Facts₀.h_S_)

set_option maxHeartbeats 4000000 in
theorem perSample_read :
    (T m c main_v57 : S4096.Idx → EReal)
      = Cert.KernelIdeal.Tail.perSampleTail ((dats m 0 c).arrAt 4 cfg0.N) ((dats m 0 c).arrAt 5 cfg0.N)
          ((dats m 0 c).arrAt 6 cfg0.N) ((dats m 0 c).arrAt 3 cfg0.N) (V m c main_v25)
          (m ((c.tc : Thread nD τ).loc main_arg3)) := by
  obtain ⟨W, hW⟩ : ∃ W, W = Pipeline.withArrays spec0 c (V0 m c) (fun w => (dats m 0 c).arrAt w cfg0.N) := ⟨_, rfl⟩
  have h3 : W (Proc.devRef .tc main_v27_0) = (dats m 0 c).arrAt 3 cfg0.N := by
    rw [hW]; exact Pipeline.withArrays_arr spec0 launch0.win.arr_inj c _ _ 3
  have h4 : W (Proc.devRef .tc main_v27_1) = (dats m 0 c).arrAt 4 cfg0.N := by
    rw [hW]; exact Pipeline.withArrays_arr spec0 launch0.win.arr_inj c _ _ 4
  have h5 : W (Proc.devRef .tc main_v27_2) = (dats m 0 c).arrAt 5 cfg0.N := by
    rw [hW]; exact Pipeline.withArrays_arr spec0 launch0.win.arr_inj c _ _ 5
  have h6 : W (Proc.devRef .tc main_v27_3) = (dats m 0 c).arrAt 6 cfg0.N := by
    rw [hW]; exact Pipeline.withArrays_arr spec0 launch0.win.arr_inj c _ _ 6
  have hv : W (Proc.devRef .tc main_v25) = V m c main_v25 := by
    rw [hW]; exact Pipeline.withArrays_of_ne _ c (V0 m c) _ main_v25 (by decide : ∀ w, Pipeline.arrRef spec0 w ≠ main_v25)
  have ha : W (Proc.devRef .tc main_arg3) = m ((c.tc : Thread nD τ).loc main_arg3) := by
    rw [hW, Pipeline.withArrays_of_ne _ c (V0 m c) _ main_arg3 (by decide : ∀ w, Pipeline.arrRef spec0 w ≠ main_arg3)]
    exact V_main_arg3 m c
  show StableHlo.after (List.flatten [hostOps1, hostOps1_1, hostOps1_2, hostOps1_3, hostOps1_4])
    (Pipeline.withArrays spec0 c (V0 m c) (fun w => (dats m 0 c).arrAt w cfg0.N)) (Proc.devRef .tc main_v57) = _
  rw [← hW]
  simp only [hostOps1, hostOps1_1, hostOps1_2, hostOps1_3, hostOps1_4, List.flatten_cons, List.flatten_nil,
    List.append_nil, List.cons_append, List.nil_append]
  after_results_simp
  rw [h3, h4, h5, h6, hv, ha]
  rfl

set_option maxHeartbeats 4000000 in
theorem weights_read :
    (T m c main_v66 : S4096.Idx → EReal)
      = Cert.ReferenceIdeal.Read.val_main_v81 (F := Ideal) (m ((c.tc : Thread nD τ).loc main_arg4))
          (m ((c.tc : Thread nD τ).loc main_arg5)) := by
  obtain ⟨W, hW⟩ : ∃ W, W = Pipeline.withArrays spec0 c (V0 m c) (fun w => (dats m 0 c).arrAt w cfg0.N) := ⟨_, rfl⟩
  have ha4 : W (Proc.devRef .tc main_arg4) = m ((c.tc : Thread nD τ).loc main_arg4) := by
    rw [hW, Pipeline.withArrays_of_ne _ c (V0 m c) _ main_arg4 (by decide : ∀ w, Pipeline.arrRef spec0 w ≠ main_arg4)]
    exact V_main_arg4 m c
  have ha5 : W (Proc.devRef .tc main_arg5) = m ((c.tc : Thread nD τ).loc main_arg5) := by
    rw [hW, Pipeline.withArrays_of_ne _ c (V0 m c) _ main_arg5 (by decide : ∀ w, Pipeline.arrRef spec0 w ≠ main_arg5)]
    exact V_main_arg5 m c
  show StableHlo.after (List.flatten [hostOps1, hostOps1_1, hostOps1_2, hostOps1_3, hostOps1_4])
    (Pipeline.withArrays spec0 c (V0 m c) (fun w => (dats m 0 c).arrAt w cfg0.N)) (Proc.devRef .tc main_v66) = _
  rw [← hW]
  simp only [hostOps1, hostOps1_1, hostOps1_2, hostOps1_3, hostOps1_4, List.flatten_cons, List.flatten_nil,
    List.append_nil, List.cons_append, List.nil_append]
  after_results_simp
  rw [ha4, ha5]
  rfl

/-- The contents after the five stretches, one stretch at a time. -/
theorem T_eq (b : Ref sig .tc) :
    T m c b = StableHlo.after hostOps1_4 (StableHlo.after hostOps1_3 (StableHlo.after hostOps1_2
      (StableHlo.after hostOps1_1 (StableHlo.after hostOps1
        (Pipeline.withArrays spec0 c (V0 m c) (fun w => (dats m 0 c).arrAt w cfg0.N))))))
      (Proc.devRef .tc b) := by
  show StableHlo.after (hostOps1 ++ (hostOps1_1 ++ (hostOps1_2 ++ (hostOps1_3 ++ (hostOps1_4 ++ [])))))
    (Pipeline.withArrays spec0 c (V0 m c) (fun w => (dats m 0 c).arrAt w cfg0.N)) (Proc.devRef .tc b) = _
  rw [Cert.LibAfterAppend.after_append, Cert.LibAfterAppend.after_append, Cert.LibAfterAppend.after_append,
    Cert.LibAfterAppend.after_append, List.append_nil]

set_option maxHeartbeats 4000000 in
theorem loss_read :
    (T m c main_v70 : S_.Idx → EReal) = lossOf (T m c main_v57) (T m c main_v66) := by
  rw [T_eq m c main_v70, T_eq m c main_v57, T_eq m c main_v66]
  generalize StableHlo.after hostOps1_3 (StableHlo.after hostOps1_2 (StableHlo.after hostOps1_1 (StableHlo.after hostOps1
    (Pipeline.withArrays spec0 c (V0 m c) (fun w => (dats m 0 c).arrAt w cfg0.N))))) = X
  simp only [hostOps1_4]
  after_results_simp
  rfl

theorem ref_loss (x0 x1 x2 x3 x4 x5) :
    Cert.ReferenceIdeal.Read.val_main_v85 (F := Ideal) x0 x1 x2 x3 x4 x5
      = lossOf (Cert.ReferenceIdeal.Read.val_main_v72 (F := Ideal) x0 x1 x2 x3)
          (Cert.ReferenceIdeal.Read.val_main_v81 (F := Ideal) x4 x5) := by
  unfold Cert.ReferenceIdeal.Read.val_main_v85 Cert.ReferenceIdeal.Read.val_main_v83 Cert.ReferenceIdeal.Read.val_main_v84
    Cert.ReferenceIdeal.Read.val_main_v82 Cert.ReferenceIdeal.Read.val_main_cst_21 Cert.ReferenceIdeal.Read.val_main_cst_22 lossOf
  rfl

end Cert.KernelIdeal.TailRead

end
-- ==== Proof.Result.lean ====
/-
  The kernel program's run, with every result named as a stage of the reference.

  After the region the four arrays hold the score matrix and the three row quantities (the positives' mass, the
  negatives' mass as whole minus positives, the positives' weighted scores); the host lines after it divide, clamp, take
  logarithms and add the margins. Row by row that is the specification's per-sample loss of those quantities, and under
  the precondition (finite features) the reference's own per-sample loss is the same number: the positives' mass is a
  positive real, so normalising each weight before the sum or dividing the sum afterwards agree, and for 0 / 1 labels
  E − E·L is E·(1 − L). The weights and the final quotient are the same host terms in both programs.
-/
import proofs.«137926_j21517786153378_2_alg».proof.Defs
import proofs.«137926_j21517786153378_2_alg».proof.Proof.Outputs
import proofs.«137926_j21517786153378_2_alg».proof.Proof.TailRead
import proofs.«137926_j21517786153378_2_alg».proof.Proof.TailRows
import proofs.«137926_j21517786153378_2_alg».proof.Proof.RefBridge
import proofs.«137926_j21517786153378_2_alg».proof.Proof.EntryArrays

set_option maxRecDepth 16384

noncomputable section

namespace Cert.KernelIdeal.Result

open Cert.KernelIdeal Cert.KernelIdeal.Gen Cert.KernelIdeal.GenP Idealize.ShloMosaic Idealize.ShloMosaic.TcCoe Idealize.SL.Sem
open Idealize.ShloMosaic.ValueIdx
open Cert.ReferenceIdeal.Read (val_main_v17 val_main_v72 val_main_v81 val_main_v85 val_main_v25)

variable [hFacts : Cert.KernelIdeal.Facts] [hPre : Cert.Pre_finite_inputs.Facts]
variable (m : (ℓ : Loc nD τ sig) → Buf (Elt Ideal) ℓ) (ρ : Dev nD → PrngReg)

/-- The per-sample losses the tail leaves are the reference's, under the precondition. -/
theorem perSample_result (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    (TailRead.T m c main_v57 : S4096.Idx → EReal)
      = val_main_v72 (F := Ideal) (m ((c.tc : Thread nD τ).loc main_arg0)) (m ((c.tc : Thread nD τ).loc main_arg1)) (m ((c.tc : Thread nD τ).loc main_arg2)) (m ((c.tc : Thread nD τ).loc main_arg3)) := by
  rw [TailRead.perSample_read m c, Outputs.pos_final m c, Outputs.neg_final m c, Outputs.weighted_final m c,
    Outputs.scores_final m c]
  refine funext fun (j : S4096.Idx) => ?_
  obtain ⟨i, rfl⟩ : ∃ i : Fin 4096, j = ix1 i := ⟨j 0, eq_ix1 j⟩
  refine (Tail.perSampleTail_apply _ _ _ _ _ _ i).trans ?_
  refine Eq.trans ?_ (Cert.RefBridge.perSample_kernelForm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hpre i).symm
  have hn : (V m c main_v25 : S_.Idx → EReal) ix0 = val_main_v25 (F := Ideal) (m ((c.tc : Thread nD τ).loc main_arg2)) ix0 :=
    congrFun (Entry.neg_count m c) ix0
  rw [hn]
  rfl

/-- The final loss the tail leaves is the reference's. -/
theorem loss_result (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    (TailRead.T m c main_v70 : S_.Idx → EReal)
      = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [TailRead.loss_read m c, perSample_result m c hpre, TailRead.weights_read m c]
  exact (TailRead.ref_loss _ _ _ _ _ _).symm

/-- THE KERNEL PROGRAM'S RUN: every weakly fair execution terminates with the four results at the reference's stages of
    the argument arrays, and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v70) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v57) = val_main_v72 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = val_main_v81 (F := Ideal) (m ((c.tc : Thread nD τ).loc main_arg4)) (m ((c.tc : Thread nD τ).loc main_arg5))
      ∧ r.2.mem ((c.tc : Thread nD τ).loc main_v27_0) = val_main_v17 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v70 (Pipeline.mem_restRefs_of main_v70 (by decide) (by decide))).trans (loss_result m c (hpre c)),
     ((h c).2 main_v57 (Pipeline.mem_restRefs_of main_v57 (by decide) (by decide))).trans (perSample_result m c (hpre c)),
     ((h c).2 main_v66 (Pipeline.mem_restRefs_of main_v66 (by decide) (by decide))).trans (TailRead.weights_read m c),
     ((h c).1 3).trans (Outputs.scores_final m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Result

end
-- ==== Proof.lean ====
/-
  The certificate of the uncertainty-weighted alignment loss kernel against its jnp reference, over the extended reals.

  Both programs l2-normalise the text and image features, form the 4096 × 4096 score matrix S = tn·vnᵀ and its
  exponentials E = exp(S / τ) (τ the f32 nearest 0.02; the kernel multiplies by the reciprocal of τ, which its
  idealization names as the exact rational 2²⁸ / 5368709, and dividing by τ is multiplying by that number), and with the
  label row L (pid equal to pid[0], as 0 / 1) compute per row
      loss_i = max(−A_i + τ·log(min(N_i, 1e36)) + margin_i, 0) + max(−S_i0 + τ·log(min(exp(S_i0/τ)·n_neg, 1e36)) + margin_i, 0),
  A_i the E·L-weighted mean of row i's scores and N_i the mass Σₖ E_ik·(1 − L_k) of its negatives, then the uncertainty
  weights and the weighted mean of the losses.
  The kernel tiles S into 1024 × 1024 tiles over a 4 × 4 grid and accumulates, per row tile, three columns over the four
  column tiles: Σ E·L, Σ (E − E·L) and Σ E·L·S; its host lines form A_i as a quotient of two of them. The reference
  normalises each weight E·L / Σ E·L before summing. These agree because, for finite features, the scores are real, the
  exponentials positive reals and label 0 is always 1, so the positives' mass is a positive real; tiling and the order of
  a sum never matter on the extended reals.
  The frames of the two kernel programs are the generated ones (read through copies that raise one elaboration budget);
  the reference's frame is its generated run with the results dropped; the idealization's one rewrite is its rule's
  statement.
-/
import proofs.«137926_j21517786153378_2_alg».proof.Defs
import proofs.«137926_j21517786153378_2_alg».proof.Proof.Gen.Kernel
import proofs.«137926_j21517786153378_2_alg».proof.Proof.Gen.KernelIdeal
import proofs.«137926_j21517786153378_2_alg».proof.Proof.Gen.ReferenceIdeal
import proofs.«137926_j21517786153378_2_alg».proof.Proof.Gen.Pre_finite_inputs
import proofs.«137926_j21517786153378_2_alg».proof.Proof.Gen.ReferenceIdeal.Run
import proofs.«137926_j21517786153378_2_alg».proof.Proof.Gen.ReferenceIdeal.Read
import proofs.«137926_j21517786153378_2_alg».proof.Proof.GenP.Kernel.Frame
import proofs.«137926_j21517786153378_2_alg».proof.Proof.GenP.KernelIdeal.Frame
import proofs.«137926_j21517786153378_2_alg».proof.Proof.Result
import Idealize.ShloMosaic.Adequacy
import Idealize.ShloMosaic.Init

noncomputable section

namespace Cert.Proof

open Idealize.ShloMosaic Idealize.ShloMosaic.TcCoe Idealize.SL.Sem
open Cert.ReferenceIdeal.Read (val_main_v17 val_main_v72 val_main_v81 val_main_v85)

theorem frame_kernel : Cert.frame_Kernel (hKernel := Cert.Kernel.Gen.facts) (hPre_finite_inputs := Cert.Pre_finite_inputs.Gen.facts) :=
  fun m ρ _ => Cert.Kernel.GenP.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.GenP.frame m ρ

theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2)
    (Cert.ReferenceIdeal.Value.run (F := Ideal) m ρ)

/-- The idealization's one rewrite: the body's constant 50.0 is named the reciprocal of the temperature. -/
theorem preserves : Cert.preserves_Kernel_KernelIdeal :=
  IdealRules.named_const.statement Cert.KernelIdeal.κ "inv_tau" .f32 0x42480000#32 ((268435456 / 5368709 : ℝ) : EReal) rfl

/-- Both programs end at the reference's stages of arguments that agree. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => val_main_v81 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Result.run (hFacts := Cert.KernelIdeal.Gen.facts) (hPre := Cert.Pre_finite_inputs.Gen.facts) m ρ hpre, ?_⟩
  refine (θ_run Cert.ReferenceIdeal.defs _ _).mono (fun _ h c => ?_) (Cert.ReferenceIdeal.Value.run (F := Ideal) m' ρ')
  obtain ⟨e0, e1, e2, e3, e4, e5⟩ := hagree c
  obtain ⟨h85, h72, h81, h17, hargs⟩ := h c
  refine ⟨h85.trans ?_, h72.trans ?_, h81.trans ?_, h17.trans ?_, hargs⟩
  · rw [Cert.ReferenceIdeal.Read.val_main_v85_eq, e0, e1, e2, e3, e4, e5]
  · rw [Cert.ReferenceIdeal.Read.val_main_v72_eq, e0, e1, e2, e3]
  · rw [Cert.ReferenceIdeal.Read.val_main_v81_eq, e4, e5]
  · rw [Cert.ReferenceIdeal.Read.val_main_v17_eq, e0, e1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
